-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v299) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x33x33x33 : Shape := ⟨4, ![3, 33, 33, 33]⟩
abbrev S32x3x512x512 : Shape := ⟨4, ![32, 3, 512, 512]⟩
abbrev S_ : Shape := ⟨0, ![]⟩

class Facts : Prop where
  bcast_S_S3x33x33x33 : S_.BroadcastsInDim S3x33x33x33 (![] : Fin 0 → Fin S3x33x33x33.rank)
  reducesTo_S3x33x33x33_S_d0_1_2_3 : S3x33x33x33.ReducesTo [0, 1, 2, 3] S_
  h_S_ : 0 < S_.numel
  bcast_S_S32x3x512x512 : S_.BroadcastsInDim S32x3x512x512 (![] : Fin 0 → Fin S32x3x512x512.rank)
  reducesTo_S32x3x512x512_S_d0_1_2_3 : S32x3x512x512.ReducesTo [0, 1, 2, 3] S_

variable [Facts]

def fn {F : FTy → Type} [FloatOps F] (main_arg0 : FVec F S3x33x33x33 .f32) (main_arg1 : FVec F S32x3x512x512 .f32) : IVec S_ 1 :=
  let main_v0 : FVec F S3x33x33x33 .f32 := Host.absf main_arg0
  let main_cst : FVec F S_ .f32 := constant S_ .f32 0x7F800000#32
  let main_v1 : FVec F S3x33x33x33 .f32 := broadcastInDim S3x33x33x33 ![] bcast_S_S3x33x33x33 main_cst
  let main_v2 : IVec S3x33x33x33 1 := cmpf .olt main_v0 main_v1
  let main_c : IVec S_ 1 := constantI S_ 1 1#1
  let main_v3 : IVec S_ 1 := (fun x v => Host.reduce IntOp.andi x v reducesTo_S3x33x33x33_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S3x33x33x33 : Shape := ⟨4, ![3, 33, 33, 33]⟩
abbrev S32x3x512x512 : Shape := ⟨4, ![32, 3, 512, 512]⟩
abbrev S99x1089 : Shape := ⟨2, ![99, 1089]⟩
abbrev S1x3x16x512 : Shape := ⟨4, ![1, 3, 16, 512]⟩
abbrev S1x1x16x128 : Shape := ⟨4, ![1, 1, 16, 128]⟩
abbrev S16x128 : Shape := ⟨2, ![16, 128]⟩
abbrev S2048 : Shape := ⟨1, ![2048]⟩
abbrev S33x2048 : Shape := ⟨2, ![33, 2048]⟩
abbrev S1x2048 : Shape := ⟨2, ![1, 2048]⟩
abbrev S33x1x2048 : Shape := ⟨3, ![33, 1, 2048]⟩
abbrev S1x33x2048 : Shape := ⟨3, ![1, 33, 2048]⟩
abbrev S33x33x2048 : Shape := ⟨3, ![33, 33, 2048]⟩
abbrev S1089x2048 : Shape := ⟨2, ![1089, 2048]⟩
abbrev S99x2048 : Shape := ⟨2, ![99, 2048]⟩
abbrev S3x33x2048 : Shape := ⟨3, ![3, 33, 2048]⟩
abbrev S3x2048 : Shape := ⟨2, ![3, 2048]⟩
abbrev S3x16x128 : Shape := ⟨3, ![3, 16, 128]⟩
abbrev S1x3x16x128 : Shape := ⟨4, ![1, 3, 16, 128]⟩

abbrev nBuf : Space → Nat
  | .hbm => 5
  | .vmem => 5
  | .smem => 0
  | _ => 0

abbrev bufTy : (tb : Table) → Fin (tcTables nBuf tb) → BufTy
  | .hbm, ⟨0, _⟩ => ⟨S3x33x33x33, .f32⟩
  | .hbm, ⟨1, _⟩ => ⟨S32x3x512x512, .f32⟩
  | .hbm, ⟨2, _⟩ => ⟨S99x1089, .f32⟩
  | .hbm, ⟨3, _⟩ => ⟨S99x1089, .bf16⟩
  | .hbm, ⟨4, _⟩ => ⟨S32x3x512x512, .f32⟩
  | .local _ .vmem, ⟨0, _⟩ => ⟨S99x1089, .bf16⟩
  | .local _ .vmem, ⟨1, _⟩ => ⟨S1x3x16x512, .f32⟩
  | .local _ .vmem, ⟨2, _⟩ => ⟨S1x3x16x512, .f32⟩
  | .local _ .vmem, ⟨3, _⟩ => ⟨S1x3x16x512, .f32⟩
  | .local _ .vmem, ⟨4, _⟩ => ⟨S1x3x16x512, .f32⟩
  | _, _ => ⟨S3x33x33x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 32], ![false, false]⟩

def k0_mult1 : BitVec 32 :=
  let c0_i32 : BitVec 32 := 0#32
  let c128_i32 : BitVec 32 := 128#32
  let v0 : BitVec 32 := Scalar.muli c0_i32 c128_i32
  v0
def k0_off1 (c0_i32 : BitVec 32) : Fin 4 → Nat :=
  let c0 : Index := 0#32
  let c0_0 : Index := 0#32
  let c0_1 : Index := 0#32
  let c128_i32 : BitVec 32 := 128#32
  let v0 : BitVec 32 := Scalar.muli c0_i32 c128_i32
  let v1 : BitVec 32 := v0
  let v2 : Index := Scalar.indexCast v1
  ![0, 0, 0, v2.toNat]
def k0_off2 (c0_i32 : BitVec 32) : Fin 4 → Nat :=
  let c0_2 : Index := 0#32
  let c1 : Index := 1#32
  let c0_3 : Index := 0#32
  let c128_i32 : BitVec 32 := 128#32
  let v0 : BitVec 32 := Scalar.muli c0_i32 c128_i32
  let v1 : BitVec 32 := v0
  let v6 : Index := Scalar.indexCast v1
  ![0, 1, 0, v6.toNat]
def k0_off3 (c0_i32 : BitVec 32) : Fin 4 → Nat :=
  let c0_4 : Index := 0#32
  let c2 : Index := 2#32
  let c0_5 : Index := 0#32
  let c128_i32 : BitVec 32 := 128#32
  let v0 : BitVec 32 := Scalar.muli c0_i32 c128_i32
  let v1 : BitVec 32 := v0
  let v10 : Index := Scalar.indexCast v1
  ![0, 2, 0, v10.toNat]
def k0_off4 (c0_i32 : BitVec 32) : Fin 4 → Nat :=
  let c0_24 : Index := 0#32
  let c0_25 : Index := 0#32
  let c0_26 : Index := 0#32
  let c128_i32 : BitVec 32 := 128#32
  let v0 : BitVec 32 := Scalar.muli c0_i32 c128_i32
  let v1 : BitVec 32 := v0
  let v74 : Index := Scalar.indexCast v1
  ![0, 0, 0, v74.toNat]
def k0_mult2 : BitVec 32 :=
  let c1_i32 : BitVec 32 := 1#32
  let c128_i32_27 : BitVec 32 := 128#32
  let v78 : BitVec 32 := Scalar.muli c1_i32 c128_i32_27
  v78
def k0_mult3 : BitVec 32 :=
  let c2_i32 : BitVec 32 := 2#32
  let c128_i32_59 : BitVec 32 := 128#32
  let v156 : BitVec 32 := Scalar.muli c2_i32 c128_i32_59
  v156
def k0_mult4 : BitVec 32 :=
  let c3_i32 : BitVec 32 := 3#32
  let c128_i32_91 : BitVec 32 := 128#32
  let v234 : BitVec 32 := Scalar.muli c3_i32 c128_i32_91
  v234
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S99x1089 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x3x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S3x33x33x33_S99x1089 : S3x33x33x33.ShapeCasts S99x1089
  bitsLt_bf16_f32 : FTy.bits .bf16 < FTy.bits .f32
  h_S1x1x16x128 : 0 < S1x1x16x128.numel
  shapeCasts_S1x1x16x128_S16x128 : S1x1x16x128.ShapeCasts S16x128
  shapeCasts_S16x128_S2048 : S16x128.ShapeCasts S2048
  iota_S33x2048_d0_w32 : S33x2048.Iotas .tc 32 [0]
  shapeCasts_S2048_S1x2048 : S2048.ShapeCasts S1x2048
  broadcasts_S1x2048_S33x2048 : S1x2048.Broadcasts S33x2048
  shapeCasts_S33x2048_S33x1x2048 : S33x2048.ShapeCasts S33x1x2048
  shapeCasts_S33x2048_S1x33x2048 : S33x2048.ShapeCasts S1x33x2048
  broadcasts_S33x1x2048_S33x33x2048 : S33x1x2048.Broadcasts S33x33x2048
  broadcasts_S1x33x2048_S33x33x2048 : S1x33x2048.Broadcasts S33x33x2048
  shapeCasts_S33x33x2048_S1089x2048 : S33x33x2048.ShapeCasts S1089x2048
  inb_S99x1089_S99x1089_0_0 : ∀ a, (![0, 0] : Fin 2 → Nat) a + S99x1089.size a ≤ S99x1089.size a
  h_S99x1089 : 0 < S99x1089.numel
  shapeCasts_S99x1089_S99x1089 : S99x1089.ShapeCasts S99x1089
  shapeCasts_S99x2048_S3x33x2048 : S99x2048.ShapeCasts S3x33x2048
  broadcasts_S1x33x2048_S3x33x2048 : S1x33x2048.Broadcasts S3x33x2048
  reduces_S3x33x2048_S3x2048 : S3x33x2048.Reduces [1] S3x2048
  shapeCasts_S3x2048_S3x16x128 : S3x2048.ShapeCasts S3x16x128
  h_S1x3x16x128 : 0 < S1x3x16x128.numel
  shapeCasts_S1x3x16x128_S3x16x128 : S1x3x16x128.ShapeCasts S3x16x128
  shapeCasts_S3x16x128_S1x3x16x128 : S3x16x128.ShapeCasts S1x3x16x128
  dot_S99x1089_S1089x2048_S99x2048_1_0_0_1_n_n_wf : DotDims.WF S99x1089 S1089x2048 S99x2048 [1] [0] [0] [1] [] []
  hrank0 : 0 < grid0.rank
  k0_mult1_dvd : 128 ∣ k0_mult1.toNat
  k0_off1_inb : ∀ (r : Fin 4), ∀ a, (k0_off1 (BitVec.ofNat 32 r.val)) a + S1x1x16x128.size a ≤ S1x3x16x512.size a
  k0_off2_inb : ∀ (r : Fin 4), ∀ a, (k0_off2 (BitVec.ofNat 32 r.val)) a + S1x1x16x128.size a ≤ S1x3x16x512.size a
  k0_off3_inb : ∀ (r : Fin 4), ∀ a, (k0_off3 (BitVec.ofNat 32 r.val)) a + S1x1x16x128.size a ≤ S1x3x16x512.size a
  k0_off4_inb : ∀ (r : Fin 4), ∀ a, (k0_off4 (BitVec.ofNat 32 r.val)) a + S1x3x16x128.size a ≤ S1x3x16x512.size a
  k0_mult2_dvd : 128 ∣ k0_mult2.toNat
  k0_mult3_dvd : 128 ∣ k0_mult3.toNat
  k0_mult4_dvd : 128 ∣ k0_mult4.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S99x1089.size a ≤ S99x1089.size a
  hwx0_0 : ∀ i : grid0.Coords, EltTy.bits .bf16 = 32 ∨ (Rect.block (s := S99x1089) S99x1089.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x16x512.size a ≤ S32x3x512x512.size a
  hwx0_1 : ∀ i : grid0.Coords, EltTy.bits .f32 = 32 ∨ (Rect.block (s := S32x3x512x512) S1x3x16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x16x512.size a ≤ S32x3x512x512.size a
  hwx0_2 : ∀ i : grid0.Coords, EltTy.bits .f32 = 32 ∨ (Rect.block (s := S32x3x512x512) S1x3x16x512.size (cc0_transform_2 i) (hinb0_2 i)).WholeWords (EltTy.packing .f32)

variable [Facts₀]

def dot_S99x1089_S1089x2048_S99x2048_1_0_0_1_n_n : DotDims S99x1089 S1089x2048 S99x2048 where
  lhsContracting := [1]
  rhsContracting := [0]
  lhsNonContracting := [0]
  rhsNonContracting := [1]
  lhsBatch := []
  rhsBatch := []
  wf := dot_S99x1089_S1089x2048_S99x2048_1_0_0_1_n_n_wf

abbrev win0_0 : Pipeline.Window sig grid0 :=
  Pipeline.Window.ofSpec (Memref.whole main_v1) S99x1089.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3x16x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S3x33x33x33 : Shape := ⟨4, ![3, 33, 33, 33]⟩
abbrev S32x3x512x512 : Shape := ⟨4, ![32, 3, 512, 512]⟩
abbrev S32x1x512x512 : Shape := ⟨4, ![32, 1, 512, 512]⟩
abbrev S32x512x512 : Shape := ⟨3, ![32, 512, 512]⟩
abbrev S_ : Shape := ⟨0, ![]⟩
abbrev S32x512x512x1 : Shape := ⟨4, ![32, 512, 512, 1]⟩
abbrev S32x512x512x3 : Shape := ⟨4, ![32, 512, 512, 3]⟩
abbrev S3x32x512x512 : Shape := ⟨4, ![3, 32, 512, 512]⟩
abbrev S1x32x512x512 : Shape := ⟨4, ![1, 32, 512, 512]⟩

abbrev nBuf : Space → Nat
  | .hbm => 407
  | .vmem => 0
  | .smem => 0
  | _ => 0

abbrev hbmTy0_0 (i : Nat) : BufTy := match i % 128 with
  | 0 => ⟨S3x33x33x33, .f32⟩
  | 1 => ⟨S32x3x512x512, .f32⟩
  | 2 => ⟨S32x1x512x512, .f32⟩
  | 3 => ⟨S32x512x512, .f32⟩
  | 4 => ⟨S32x1x512x512, .f32⟩
  | 5 => ⟨S32x512x512, .f32⟩
  | 6 => ⟨S32x1x512x512, .f32⟩
  | 7 => ⟨S32x512x512, .f32⟩
  | 8 => ⟨S_, .f32⟩
  | 9 => ⟨S32x512x512, .f32⟩
  | 10 => ⟨S32x512x512, .f32⟩
  | 11 => ⟨S_, .f32⟩
  | 12 => ⟨S_, .f32⟩
  | 13 => ⟨S_, .f32⟩
  | 14 => ⟨S32x512x512, .f32⟩
  | 15 => ⟨S32x512x512, .f32⟩
  | 16 => ⟨S32x512x512, .f32⟩
  | 17 => ⟨S32x512x512, .f32⟩
  | 18 => ⟨S_, .f32⟩
  | 19 => ⟨S32x512x512, .f32⟩
  | 20 => ⟨S32x512x512, .f32⟩
  | 21 => ⟨S_, .f32⟩
  | 22 => ⟨S_, .f32⟩
  | 23 => ⟨S_, .f32⟩
  | 24 => ⟨S32x512x512, .f32⟩
  | 25 => ⟨S32x512x512, .f32⟩
  | 26 => ⟨S32x512x512, .f32⟩
  | 27 => ⟨S32x512x512, .f32⟩
  | 28 => ⟨S_, .f32⟩
  | 29 => ⟨S32x512x512, .f32⟩
  | 30 => ⟨S32x512x512, .f32⟩
  | 31 => ⟨S_, .f32⟩
  | 32 => ⟨S_, .f32⟩
  | 33 => ⟨S_, .f32⟩
  | 34 => ⟨S32x512x512, .f32⟩
  | 35 => ⟨S32x512x512, .f32⟩
  | 36 => ⟨S32x512x512, .f32⟩
  | 37 => ⟨S32x512x512, .f32⟩
  | 38 => ⟨S32x512x512, .f32⟩
  | 39 => ⟨S_, .f32⟩
  | 40 => ⟨S_, .f32⟩
  | 41 => ⟨S_, .f32⟩
  | 42 => ⟨S_, .f32⟩
  | 43 => ⟨S_, .f32⟩
  | 44 => ⟨S32x512x512, .f32⟩
  | 45 => ⟨S32x512x512, .f32⟩
  | 46 => ⟨S32x512x512, .f32⟩
  | 47 => ⟨S32x512x512, .f32⟩
  | 48 => ⟨S32x512x512, .f32⟩
  | 49 => ⟨S_, .f32⟩
  | 50 => ⟨S_, .f32⟩
  | 51 => ⟨S_, .f32⟩
  | 52 => ⟨S_, .f32⟩
  | 53 => ⟨S_, .f32⟩
  | 54 => ⟨S32x512x512, .f32⟩
  | 55 => ⟨S32x512x512, .f32⟩
  | 56 => ⟨S32x512x512, .f32⟩
  | 57 => ⟨S32x512x512, .f32⟩
  | 58 => ⟨S32x512x512, .f32⟩
  | 59 => ⟨S_, .f32⟩
  | 60 => ⟨S_, .f32⟩
  | 61 => ⟨S_, .f32⟩
  | 62 => ⟨S_, .f32⟩
  | 63 => ⟨S_, .f32⟩
  | 64 => ⟨S32x512x512, .f32⟩
  | 65 => ⟨S32x512x512, .f32⟩
  | 66 => ⟨S32x512x512, .f32⟩
  | 67 => ⟨S32x512x512, .f32⟩
  | 68 => ⟨S32x512x512, .f32⟩
  | 69 => ⟨S32x512x512, .f32⟩
  | 70 => ⟨S32x512x512, .f32⟩
  | 71 => ⟨S32x512x512, .i32⟩
  | 72 => ⟨S_, .i32⟩
  | 73 => ⟨S32x512x512, .i32⟩
  | 74 => ⟨S32x512x512, .i32⟩
  | 75 => ⟨S32x512x512, .i32⟩
  | 76 => ⟨S_, .i32⟩
  | 77 => ⟨S32x512x512, .i32⟩
  | 78 => ⟨S32x512x512, .i32⟩
  | 79 => ⟨S32x512x512, .i32⟩
  | 80 => ⟨S_, .i32⟩
  | 81 => ⟨S32x512x512, .i32⟩
  | 82 => ⟨S32x512x512, .i32⟩
  | 83 => ⟨S_, .i32⟩
  | 84 => ⟨S32x512x512, .i32⟩
  | 85 => ⟨S32x512x512, .i1⟩
  | 86 => ⟨S_, .i32⟩
  | 87 => ⟨S32x512x512, .i32⟩
  | 88 => ⟨S32x512x512, .i32⟩
  | 89 => ⟨S32x512x512, .i32⟩
  | 90 => ⟨S_, .i32⟩
  | 91 => ⟨S32x512x512, .i32⟩
  | 92 => ⟨S32x512x512, .i1⟩
  | 93 => ⟨S_, .i32⟩
  | 94 => ⟨S32x512x512, .i32⟩
  | 95 => ⟨S32x512x512, .i32⟩
  | 96 => ⟨S32x512x512, .i32⟩
  | 97 => ⟨S_, .i32⟩
  | 98 => ⟨S32x512x512, .i32⟩
  | 99 => ⟨S32x512x512, .i1⟩
  | 100 => ⟨S_, .i32⟩
  | 101 => ⟨S32x512x512, .i32⟩
  | 102 => ⟨S32x512x512, .i32⟩
  | 103 => ⟨S32x512x512, .i32⟩
  | 104 => ⟨S32x512x512x1, .i32⟩
  | 105 => ⟨S32x512x512x1, .i32⟩
  | 106 => ⟨S32x512x512x1, .i32⟩
  | 107 => ⟨S32x512x512x3, .i32⟩
  | 108 => ⟨S3x32x512x512, .f32⟩
  | 109 => ⟨S_, .f32⟩
  | 110 => ⟨S32x512x512, .f32⟩
  | 111 => ⟨S32x512x512, .f32⟩
  | 112 => ⟨S1x32x512x512, .f32⟩
  | 113 => ⟨S3x32x512x512, .f32⟩
  | 114 => ⟨S3x32x512x512, .f32⟩
  | 115 => ⟨S_, .f32⟩
  | 116 => ⟨S32x512x512, .f32⟩
  | 117 => ⟨S32x512x512, .f32⟩
  | 118 => ⟨S1x32x512x512, .f32⟩
  | 119 => ⟨S3x32x512x512, .f32⟩
  | 120 => ⟨S3x32x512x512, .f32⟩
  | 121 => ⟨S_, .f32⟩
  | 122 => ⟨S32x512x512, .f32⟩
  | 123 => ⟨S32x512x512, .f32⟩
  | 124 => ⟨S1x32x512x512, .f32⟩
  | 125 => ⟨S3x32x512x512, .f32⟩
  | 126 => ⟨S3x32x512x512, .f32⟩
  | 127 => ⟨S_, .i32⟩
  | _ => ⟨S3x33x33x33, .f32⟩

abbrev hbmTy0_1 (i : Nat) : BufTy := match i % 128 with
  | 0 => ⟨S32x512x512, .i32⟩
  | 1 => ⟨S32x512x512, .i1⟩
  | 2 => ⟨S_, .i32⟩
  | 3 => ⟨S32x512x512, .i32⟩
  | 4 => ⟨S32x512x512, .i32⟩
  | 5 => ⟨S32x512x512, .i32⟩
  | 6 => ⟨S_, .i32⟩
  | 7 => ⟨S32x512x512, .i32⟩
  | 8 => ⟨S32x512x512, .i1⟩
  | 9 => ⟨S_, .i32⟩
  | 10 => ⟨S32x512x512, .i32⟩
  | 11 => ⟨S32x512x512, .i32⟩
  | 12 => ⟨S32x512x512, .i32⟩
  | 13 => ⟨S_, .i32⟩
  | 14 => ⟨S32x512x512, .i32⟩
  | 15 => ⟨S32x512x512, .i1⟩
  | 16 => ⟨S_, .i32⟩
  | 17 => ⟨S32x512x512, .i32⟩
  | 18 => ⟨S32x512x512, .i32⟩
  | 19 => ⟨S32x512x512, .i32⟩
  | 20 => ⟨S32x512x512x1, .i32⟩
  | 21 => ⟨S32x512x512x1, .i32⟩
  | 22 => ⟨S32x512x512x1, .i32⟩
  | 23 => ⟨S32x512x512x3, .i32⟩
  | 24 => ⟨S3x32x512x512, .f32⟩
  | 25 => ⟨S_, .f32⟩
  | 26 => ⟨S32x512x512, .f32⟩
  | 27 => ⟨S32x512x512, .f32⟩
  | 28 => ⟨S1x32x512x512, .f32⟩
  | 29 => ⟨S3x32x512x512, .f32⟩
  | 30 => ⟨S3x32x512x512, .f32⟩
  | 31 => ⟨S_, .f32⟩
  | 32 => ⟨S32x512x512, .f32⟩
  | 33 => ⟨S32x512x512, .f32⟩
  | 34 => ⟨S1x32x512x512, .f32⟩
  | 35 => ⟨S3x32x512x512, .f32⟩
  | 36 => ⟨S3x32x512x512, .f32⟩
  | 37 => ⟨S1x32x512x512, .f32⟩
  | 38 => ⟨S3x32x512x512, .f32⟩
  | 39 => ⟨S3x32x512x512, .f32⟩
  | 40 => ⟨S3x32x512x512, .f32⟩
  | 41 => ⟨S_, .i32⟩
  | 42 => ⟨S32x512x512, .i32⟩
  | 43 => ⟨S32x512x512, .i1⟩
  | 44 => ⟨S_, .i32⟩
  | 45 => ⟨S32x512x512, .i32⟩
  | 46 => ⟨S32x512x512, .i32⟩
  | 47 => ⟨S32x512x512, .i32⟩
  | 48 => ⟨S_, .i32⟩
  | 49 => ⟨S32x512x512, .i32⟩
  | 50 => ⟨S32x512x512, .i1⟩
  | 51 => ⟨S_, .i32⟩
  | 52 => ⟨S32x512x512, .i32⟩
  | 53 => ⟨S32x512x512, .i32⟩
  | 54 => ⟨S32x512x512, .i32⟩
  | 55 => ⟨S_, .i32⟩
  | 56 => ⟨S32x512x512, .i32⟩
  | 57 => ⟨S32x512x512, .i1⟩
  | 58 => ⟨S_, .i32⟩
  | 59 => ⟨S32x512x512, .i32⟩
  | 60 => ⟨S32x512x512, .i32⟩
  | 61 => ⟨S32x512x512, .i32⟩
  | 62 => ⟨S32x512x512x1, .i32⟩
  | 63 => ⟨S32x512x512x1, .i32⟩
  | 64 => ⟨S32x512x512x1, .i32⟩
  | 65 => ⟨S32x512x512x3, .i32⟩
  | 66 => ⟨S3x32x512x512, .f32⟩
  | 67 => ⟨S_, .f32⟩
  | 68 => ⟨S32x512x512, .f32⟩
  | 69 => ⟨S32x512x512, .f32⟩
  | 70 => ⟨S1x32x512x512, .f32⟩
  | 71 => ⟨S3x32x512x512, .f32⟩
  | 72 => ⟨S3x32x512x512, .f32⟩
  | 73 => ⟨S1x32x512x512, .f32⟩
  | 74 => ⟨S3x32x512x512, .f32⟩
  | 75 => ⟨S3x32x512x512, .f32⟩
  | 76 => ⟨S_, .f32⟩
  | 77 => ⟨S32x512x512, .f32⟩
  | 78 => ⟨S32x512x512, .f32⟩
  | 79 => ⟨S1x32x512x512, .f32⟩
  | 80 => ⟨S3x32x512x512, .f32⟩
  | 81 => ⟨S3x32x512x512, .f32⟩
  | 82 => ⟨S3x32x512x512, .f32⟩
  | 83 => ⟨S_, .i32⟩
  | 84 => ⟨S32x512x512, .i32⟩
  | 85 => ⟨S32x512x512, .i1⟩
  | 86 => ⟨S_, .i32⟩
  | 87 => ⟨S32x512x512, .i32⟩
  | 88 => ⟨S32x512x512, .i32⟩
  | 89 => ⟨S32x512x512, .i32⟩
  | 90 => ⟨S_, .i32⟩
  | 91 => ⟨S32x512x512, .i32⟩
  | 92 => ⟨S32x512x512, .i1⟩
  | 93 => ⟨S_, .i32⟩
  | 94 => ⟨S32x512x512, .i32⟩
  | 95 => ⟨S32x512x512, .i32⟩
  | 96 => ⟨S32x512x512, .i32⟩
  | 97 => ⟨S_, .i32⟩
  | 98 => ⟨S32x512x512, .i32⟩
  | 99 => ⟨S32x512x512, .i1⟩
  | 100 => ⟨S_, .i32⟩
  | 101 => ⟨S32x512x512, .i32⟩
  | 102 => ⟨S32x512x512, .i32⟩
  | 103 => ⟨S32x512x512, .i32⟩
  | 104 => ⟨S32x512x512x1, .i32⟩
  | 105 => ⟨S32x512x512x1, .i32⟩
  | 106 => ⟨S32x512x512x1, .i32⟩
  | 107 => ⟨S32x512x512x3, .i32⟩
  | 108 => ⟨S3x32x512x512, .f32⟩
  | 109 => ⟨S_, .f32⟩
  | 110 => ⟨S32x512x512, .f32⟩
  | 111 => ⟨S32x512x512, .f32⟩
  | 112 => ⟨S1x32x512x512, .f32⟩
  | 113 => ⟨S3x32x512x512, .f32⟩
  | 114 => ⟨S3x32x512x512, .f32⟩
  | 115 => ⟨S1x32x512x512, .f32⟩
  | 116 => ⟨S3x32x512x512, .f32⟩
  | 117 => ⟨S3x32x512x512, .f32⟩
  | 118 => ⟨S1x32x512x512, .f32⟩
  | 119 => ⟨S3x32x512x512, .f32⟩
  | 120 => ⟨S3x32x512x512, .f32⟩
  | 121 => ⟨S3x32x512x512, .f32⟩
  | 122 => ⟨S_, .i32⟩
  | 123 => ⟨S32x512x512, .i32⟩
  | 124 => ⟨S32x512x512, .i1⟩
  | 125 => ⟨S_, .i32⟩
  | 126 => ⟨S32x512x512, .i32⟩
  | 127 => ⟨S32x512x512, .i32⟩
  | _ => ⟨S3x33x33x33, .f32⟩

abbrev hbmTy0_2 (i : Nat) : BufTy := match i % 128 with
  | 0 => ⟨S32x512x512, .i32⟩
  | 1 => ⟨S_, .i32⟩
  | 2 => ⟨S32x512x512, .i32⟩
  | 3 => ⟨S32x512x512, .i1⟩
  | 4 => ⟨S_, .i32⟩
  | 5 => ⟨S32x512x512, .i32⟩
  | 6 => ⟨S32x512x512, .i32⟩
  | 7 => ⟨S32x512x512, .i32⟩
  | 8 => ⟨S_, .i32⟩
  | 9 => ⟨S32x512x512, .i32⟩
  | 10 => ⟨S32x512x512, .i1⟩
  | 11 => ⟨S_, .i32⟩
  | 12 => ⟨S32x512x512, .i32⟩
  | 13 => ⟨S32x512x512, .i32⟩
  | 14 => ⟨S32x512x512, .i32⟩
  | 15 => ⟨S32x512x512x1, .i32⟩
  | 16 => ⟨S32x512x512x1, .i32⟩
  | 17 => ⟨S32x512x512x1, .i32⟩
  | 18 => ⟨S32x512x512x3, .i32⟩
  | 19 => ⟨S3x32x512x512, .f32⟩
  | 20 => ⟨S1x32x512x512, .f32⟩
  | 21 => ⟨S3x32x512x512, .f32⟩
  | 22 => ⟨S3x32x512x512, .f32⟩
  | 23 => ⟨S_, .f32⟩
  | 24 => ⟨S32x512x512, .f32⟩
  | 25 => ⟨S32x512x512, .f32⟩
  | 26 => ⟨S1x32x512x512, .f32⟩
  | 27 => ⟨S3x32x512x512, .f32⟩
  | 28 => ⟨S3x32x512x512, .f32⟩
  | 29 => ⟨S_, .f32⟩
  | 30 => ⟨S32x512x512, .f32⟩
  | 31 => ⟨S32x512x512, .f32⟩
  | 32 => ⟨S1x32x512x512, .f32⟩
  | 33 => ⟨S3x32x512x512, .f32⟩
  | 34 => ⟨S3x32x512x512, .f32⟩
  | 35 => ⟨S3x32x512x512, .f32⟩
  | 36 => ⟨S_, .i32⟩
  | 37 => ⟨S32x512x512, .i32⟩
  | 38 => ⟨S32x512x512, .i1⟩
  | 39 => ⟨S_, .i32⟩
  | 40 => ⟨S32x512x512, .i32⟩
  | 41 => ⟨S32x512x512, .i32⟩
  | 42 => ⟨S32x512x512, .i32⟩
  | 43 => ⟨S_, .i32⟩
  | 44 => ⟨S32x512x512, .i32⟩
  | 45 => ⟨S32x512x512, .i1⟩
  | 46 => ⟨S_, .i32⟩
  | 47 => ⟨S32x512x512, .i32⟩
  | 48 => ⟨S32x512x512, .i32⟩
  | 49 => ⟨S32x512x512, .i32⟩
  | 50 => ⟨S_, .i32⟩
  | 51 => ⟨S32x512x512, .i32⟩
  | 52 => ⟨S32x512x512, .i1⟩
  | 53 => ⟨S_, .i32⟩
  | 54 => ⟨S32x512x512, .i32⟩
  | 55 => ⟨S32x512x512, .i32⟩
  | 56 => ⟨S32x512x512, .i32⟩
  | 57 => ⟨S32x512x512x1, .i32⟩
  | 58 => ⟨S32x512x512x1, .i32⟩
  | 59 => ⟨S32x512x512x1, .i32⟩
  | 60 => ⟨S32x512x512x3, .i32⟩
  | 61 => ⟨S3x32x512x512, .f32⟩
  | 62 => ⟨S1x32x512x512, .f32⟩
  | 63 => ⟨S3x32x512x512, .f32⟩
  | 64 => ⟨S3x32x512x512, .f32⟩
  | 65 => ⟨S_, .f32⟩
  | 66 => ⟨S32x512x512, .f32⟩
  | 67 => ⟨S32x512x512, .f32⟩
  | 68 => ⟨S1x32x512x512, .f32⟩
  | 69 => ⟨S3x32x512x512, .f32⟩
  | 70 => ⟨S3x32x512x512, .f32⟩
  | 71 => ⟨S1x32x512x512, .f32⟩
  | 72 => ⟨S3x32x512x512, .f32⟩
  | 73 => ⟨S3x32x512x512, .f32⟩
  | 74 => ⟨S3x32x512x512, .f32⟩
  | 75 => ⟨S_, .i32⟩
  | 76 => ⟨S32x512x512, .i32⟩
  | 77 => ⟨S32x512x512, .i1⟩
  | 78 => ⟨S_, .i32⟩
  | 79 => ⟨S32x512x512, .i32⟩
  | 80 => ⟨S32x512x512, .i32⟩
  | 81 => ⟨S32x512x512, .i32⟩
  | 82 => ⟨S_, .i32⟩
  | 83 => ⟨S32x512x512, .i32⟩
  | 84 => ⟨S32x512x512, .i1⟩
  | 85 => ⟨S_, .i32⟩
  | 86 => ⟨S32x512x512, .i32⟩
  | 87 => ⟨S32x512x512, .i32⟩
  | 88 => ⟨S32x512x512, .i32⟩
  | 89 => ⟨S_, .i32⟩
  | 90 => ⟨S32x512x512, .i32⟩
  | 91 => ⟨S32x512x512, .i1⟩
  | 92 => ⟨S_, .i32⟩
  | 93 => ⟨S32x512x512, .i32⟩
  | 94 => ⟨S32x512x512, .i32⟩
  | 95 => ⟨S32x512x512, .i32⟩
  | 96 => ⟨S32x512x512x1, .i32⟩
  | 97 => ⟨S32x512x512x1, .i32⟩
  | 98 => ⟨S32x512x512x1, .i32⟩
  | 99 => ⟨S32x512x512x3, .i32⟩
  | 100 => ⟨S3x32x512x512, .f32⟩
  | 101 => ⟨S1x32x512x512, .f32⟩
  | 102 => ⟨S3x32x512x512, .f32⟩
  | 103 => ⟨S3x32x512x512, .f32⟩
  | 104 => ⟨S1x32x512x512, .f32⟩
  | 105 => ⟨S3x32x512x512, .f32⟩
  | 106 => ⟨S3x32x512x512, .f32⟩
  | 107 => ⟨S_, .f32⟩
  | 108 => ⟨S32x512x512, .f32⟩
  | 109 => ⟨S32x512x512, .f32⟩
  | 110 => ⟨S1x32x512x512, .f32⟩
  | 111 => ⟨S3x32x512x512, .f32⟩
  | 112 => ⟨S3x32x512x512, .f32⟩
  | 113 => ⟨S3x32x512x512, .f32⟩
  | 114 => ⟨S_, .i32⟩
  | 115 => ⟨S32x512x512, .i32⟩
  | 116 => ⟨S32x512x512, .i1⟩
  | 117 => ⟨S_, .i32⟩
  | 118 => ⟨S32x512x512, .i32⟩
  | 119 => ⟨S32x512x512, .i32⟩
  | 120 => ⟨S32x512x512, .i32⟩
  | 121 => ⟨S_, .i32⟩
  | 122 => ⟨S32x512x512, .i32⟩
  | 123 => ⟨S32x512x512, .i1⟩
  | 124 => ⟨S_, .i32⟩
  | 125 => ⟨S32x512x512, .i32⟩
  | 126 => ⟨S32x512x512, .i32⟩
  | 127 => ⟨S32x512x512, .i32⟩
  | _ => ⟨S3x33x33x33, .f32⟩

abbrev hbmTy0_3 (i : Nat) : BufTy := match i % 128 with
  | 0 => ⟨S_, .i32⟩
  | 1 => ⟨S32x512x512, .i32⟩
  | 2 => ⟨S32x512x512, .i1⟩
  | 3 => ⟨S_, .i32⟩
  | 4 => ⟨S32x512x512, .i32⟩
  | 5 => ⟨S32x512x512, .i32⟩
  | 6 => ⟨S32x512x512, .i32⟩
  | 7 => ⟨S32x512x512x1, .i32⟩
  | 8 => ⟨S32x512x512x1, .i32⟩
  | 9 => ⟨S32x512x512x1, .i32⟩
  | 10 => ⟨S32x512x512x3, .i32⟩
  | 11 => ⟨S3x32x512x512, .f32⟩
  | 12 => ⟨S1x32x512x512, .f32⟩
  | 13 => ⟨S3x32x512x512, .f32⟩
  | 14 => ⟨S3x32x512x512, .f32⟩
  | 15 => ⟨S1x32x512x512, .f32⟩
  | 16 => ⟨S3x32x512x512, .f32⟩
  | 17 => ⟨S3x32x512x512, .f32⟩
  | 18 => ⟨S1x32x512x512, .f32⟩
  | 19 => ⟨S3x32x512x512, .f32⟩
  | 20 => ⟨S3x32x512x512, .f32⟩
  | 21 => ⟨S3x32x512x512, .f32⟩
  | 22 => ⟨S32x3x512x512, .f32⟩
  | _ => ⟨S3x33x33x33, .f32⟩

abbrev hbmTy (i : Nat) : BufTy := match i / 128 with
  | 0 => hbmTy0_0 i
  | 1 => hbmTy0_1 i
  | 2 => hbmTy0_2 i
  | 3 => hbmTy0_3 i
  | _ => ⟨S3x33x33x33, .f32⟩

abbrev bufTy : (tb : Table) → Fin (tcTables nBuf tb) → BufTy
  | .hbm, ⟨i, _⟩ => hbmTy i
  | _, _ => ⟨S3x33x33x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_v11 : Ref sig .tc := ⟨.hbm, 27, rfl⟩
abbrev main_cst_5 : Ref sig .tc := ⟨.hbm, 28, rfl⟩
abbrev main_v12 : Ref sig .tc := ⟨.hbm, 29, rfl⟩
abbrev main_v13 : Ref sig .tc := ⟨.hbm, 30, rfl⟩
abbrev main_cst_6 : Ref sig .tc := ⟨.hbm, 31, rfl⟩
abbrev main_cst_7 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_v14 : Ref sig .tc := ⟨.hbm, 37, rfl⟩
abbrev main_v15 : Ref sig .tc := ⟨.hbm, 38, rfl⟩
abbrev main_cst_8 : Ref sig .tc := ⟨.hbm, 39, rfl⟩
abbrev main_cst_9 : Ref sig .tc := ⟨.hbm, 40, rfl⟩
abbrev main_v16 : Ref sig .tc := ⟨.hbm, 41, rfl⟩
abbrev main_cst_10 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_v17 : Ref sig .tc := ⟨.hbm, 47, rfl⟩
abbrev main_v18 : Ref sig .tc := ⟨.hbm, 48, rfl⟩
abbrev main_cst_11 : Ref sig .tc := ⟨.hbm, 49, rfl⟩
abbrev main_cst_12 : Ref sig .tc := ⟨.hbm, 50, rfl⟩
abbrev main_v19 : Ref sig .tc := ⟨.hbm, 51, rfl⟩
abbrev main_cst_13 : Ref sig .tc := ⟨.hbm, 52, rfl⟩
abbrev main_call4_v0 : Ref sig .tc := ⟨.hbm, 53, rfl⟩
abbrev main_call4_v1 : Ref sig .tc := ⟨.hbm, 54, rfl⟩
abbrev main_call4_v2 : Ref sig .tc := ⟨.hbm, 55, rfl⟩
abbrev main_call4_v3 : Ref sig .tc := ⟨.hbm, 56, rfl⟩
abbrev main_v20 : Ref sig .tc := ⟨.hbm, 57, rfl⟩
abbrev main_v21 : Ref sig .tc := ⟨.hbm, 58, rfl⟩
abbrev main_cst_14 : Ref sig .tc := ⟨.hbm, 59, rfl⟩
abbrev main_cst_15 : Ref sig .tc := ⟨.hbm, 60, rfl⟩
abbrev main_v22 : Ref sig .tc := ⟨.hbm, 61, rfl⟩
abbrev main_cst_16 : Ref sig .tc := ⟨.hbm, 62, rfl⟩
abbrev main_call5_v0 : Ref sig .tc := ⟨.hbm, 63, rfl⟩
abbrev main_call5_v1 : Ref sig .tc := ⟨.hbm, 64, rfl⟩
abbrev main_call5_v2 : Ref sig .tc := ⟨.hbm, 65, rfl⟩
abbrev main_call5_v3 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_c : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_c_17 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_c_18 : Ref sig .tc := ⟨.hbm, 80, rfl⟩
abbrev main_v34 : Ref sig .tc := ⟨.hbm, 81, rfl⟩
abbrev main_v35 : Ref sig .tc := ⟨.hbm, 82, rfl⟩
abbrev main_c_19 : Ref sig .tc := ⟨.hbm, 83, rfl⟩
abbrev main_v36 : Ref sig .tc := ⟨.hbm, 84, rfl⟩
abbrev main_v37 : Ref sig .tc := ⟨.hbm, 85, rfl⟩
abbrev main_c_20 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_c_21 : Ref sig .tc := ⟨.hbm, 90, rfl⟩
abbrev main_v41 : Ref sig .tc := ⟨.hbm, 91, rfl⟩
abbrev main_v42 : Ref sig .tc := ⟨.hbm, 92, rfl⟩
abbrev main_c_22 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_c_23 : Ref sig .tc := ⟨.hbm, 97, rfl⟩
abbrev main_v46 : Ref sig .tc := ⟨.hbm, 98, rfl⟩
abbrev main_v47 : Ref sig .tc := ⟨.hbm, 99, rfl⟩
abbrev main_c_24 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_25 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_cst_26 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_cst_27 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_c_28 : Ref sig .tc := ⟨.hbm, 127, rfl⟩
abbrev main_v71 : Ref sig .tc := ⟨.hbm, 128, rfl⟩
abbrev main_v72 : Ref sig .tc := ⟨.hbm, 129, rfl⟩
abbrev main_c_29 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_c_30 : Ref sig .tc := ⟨.hbm, 134, rfl⟩
abbrev main_v76 : Ref sig .tc := ⟨.hbm, 135, rfl⟩
abbrev main_v77 : Ref sig .tc := ⟨.hbm, 136, rfl⟩
abbrev main_c_31 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_c_32 : Ref sig .tc := ⟨.hbm, 141, rfl⟩
abbrev main_v81 : Ref sig .tc := ⟨.hbm, 142, rfl⟩
abbrev main_v82 : Ref sig .tc := ⟨.hbm, 143, rfl⟩
abbrev main_c_33 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_34 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_cst_35 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_c_36 : Ref sig .tc := ⟨.hbm, 169, rfl⟩
abbrev main_v105 : Ref sig .tc := ⟨.hbm, 170, rfl⟩
abbrev main_v106 : Ref sig .tc := ⟨.hbm, 171, rfl⟩
abbrev main_c_37 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_c_38 : Ref sig .tc := ⟨.hbm, 176, rfl⟩
abbrev main_v110 : Ref sig .tc := ⟨.hbm, 177, rfl⟩
abbrev main_v111 : Ref sig .tc := ⟨.hbm, 178, rfl⟩
abbrev main_c_39 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_c_40 : Ref sig .tc := ⟨.hbm, 183, rfl⟩
abbrev main_v115 : Ref sig .tc := ⟨.hbm, 184, rfl⟩
abbrev main_v116 : Ref sig .tc := ⟨.hbm, 185, rfl⟩
abbrev main_c_41 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_cst_42 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_cst_43 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_c_44 : Ref sig .tc := ⟨.hbm, 211, rfl⟩
abbrev main_v139 : Ref sig .tc := ⟨.hbm, 212, rfl⟩
abbrev main_v140 : Ref sig .tc := ⟨.hbm, 213, rfl⟩
abbrev main_c_45 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_c_46 : Ref sig .tc := ⟨.hbm, 218, rfl⟩
abbrev main_v144 : Ref sig .tc := ⟨.hbm, 219, rfl⟩
abbrev main_v145 : Ref sig .tc := ⟨.hbm, 220, rfl⟩
abbrev main_c_47 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_c_48 : Ref sig .tc := ⟨.hbm, 225, rfl⟩
abbrev main_v149 : Ref sig .tc := ⟨.hbm, 226, rfl⟩
abbrev main_v150 : Ref sig .tc := ⟨.hbm, 227, rfl⟩
abbrev main_c_49 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_cst_50 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_c_51 : Ref sig .tc := ⟨.hbm, 250, rfl⟩
abbrev main_v171 : Ref sig .tc := ⟨.hbm, 251, rfl⟩
abbrev main_v172 : Ref sig .tc := ⟨.hbm, 252, rfl⟩
abbrev main_c_52 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_c_53 : Ref sig .tc := ⟨.hbm, 257, rfl⟩
abbrev main_v176 : Ref sig .tc := ⟨.hbm, 258, rfl⟩
abbrev main_v177 : Ref sig .tc := ⟨.hbm, 259, rfl⟩
abbrev main_c_54 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_c_55 : Ref sig .tc := ⟨.hbm, 264, rfl⟩
abbrev main_v181 : Ref sig .tc := ⟨.hbm, 265, rfl⟩
abbrev main_v182 : Ref sig .tc := ⟨.hbm, 266, rfl⟩
abbrev main_c_56 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_cst_57 : Ref sig .tc := ⟨.hbm, 279, rfl⟩
abbrev main_v194 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_cst_58 : Ref sig .tc := ⟨.hbm, 285, rfl⟩
abbrev main_v199 : Ref sig .tc := ⟨.hbm, 286, rfl⟩
abbrev main_v200 : Ref sig .tc := ⟨.hbm, 287, rfl⟩
abbrev main_v201 : Ref sig .tc := ⟨.hbm, 288, rfl⟩
abbrev main_v202 : Ref sig .tc := ⟨.hbm, 289, rfl⟩
abbrev main_v203 : Ref sig .tc := ⟨.hbm, 290, rfl⟩
abbrev main_v204 : Ref sig .tc := ⟨.hbm, 291, rfl⟩
abbrev main_c_59 : Ref sig .tc := ⟨.hbm, 292, rfl⟩
abbrev main_v205 : Ref sig .tc := ⟨.hbm, 293, rfl⟩
abbrev main_v206 : Ref sig .tc := ⟨.hbm, 294, rfl⟩
abbrev main_c_60 : Ref sig .tc := ⟨.hbm, 295, rfl⟩
abbrev main_v207 : Ref sig .tc := ⟨.hbm, 296, rfl⟩
abbrev main_v208 : Ref sig .tc := ⟨.hbm, 297, rfl⟩
abbrev main_v209 : Ref sig .tc := ⟨.hbm, 298, rfl⟩
abbrev main_c_61 : Ref sig .tc := ⟨.hbm, 299, rfl⟩
abbrev main_v210 : Ref sig .tc := ⟨.hbm, 300, rfl⟩
abbrev main_v211 : Ref sig .tc := ⟨.hbm, 301, rfl⟩
abbrev main_c_62 : Ref sig .tc := ⟨.hbm, 302, rfl⟩
abbrev main_v212 : Ref sig .tc := ⟨.hbm, 303, rfl⟩
abbrev main_v213 : Ref sig .tc := ⟨.hbm, 304, rfl⟩
abbrev main_v214 : Ref sig .tc := ⟨.hbm, 305, rfl⟩
abbrev main_c_63 : Ref sig .tc := ⟨.hbm, 306, rfl⟩
abbrev main_v215 : Ref sig .tc := ⟨.hbm, 307, rfl⟩
abbrev main_v216 : Ref sig .tc := ⟨.hbm, 308, rfl⟩
abbrev main_c_64 : Ref sig .tc := ⟨.hbm, 309, rfl⟩
abbrev main_v217 : Ref sig .tc := ⟨.hbm, 310, rfl⟩
abbrev main_v218 : Ref sig .tc := ⟨.hbm, 311, rfl⟩
abbrev main_v219 : Ref sig .tc := ⟨.hbm, 312, rfl⟩
abbrev main_v220 : Ref sig .tc := ⟨.hbm, 313, rfl⟩
abbrev main_v221 : Ref sig .tc := ⟨.hbm, 314, rfl⟩
abbrev main_v222 : Ref sig .tc := ⟨.hbm, 315, rfl⟩
abbrev main_v223 : Ref sig .tc := ⟨.hbm, 316, rfl⟩
abbrev main_v224 : Ref sig .tc := ⟨.hbm, 317, rfl⟩
abbrev main_v225 : Ref sig .tc := ⟨.hbm, 318, rfl⟩
abbrev main_v226 : Ref sig .tc := ⟨.hbm, 319, rfl⟩
abbrev main_v227 : Ref sig .tc := ⟨.hbm, 320, rfl⟩
abbrev main_cst_65 : Ref sig .tc := ⟨.hbm, 321, rfl⟩
abbrev main_v228 : Ref sig .tc := ⟨.hbm, 322, rfl⟩
abbrev main_v229 : Ref sig .tc := ⟨.hbm, 323, rfl⟩
abbrev main_v230 : Ref sig .tc := ⟨.hbm, 324, rfl⟩
abbrev main_v231 : Ref sig .tc := ⟨.hbm, 325, rfl⟩
abbrev main_v232 : Ref sig .tc := ⟨.hbm, 326, rfl⟩
abbrev main_v233 : Ref sig .tc := ⟨.hbm, 327, rfl⟩
abbrev main_v234 : Ref sig .tc := ⟨.hbm, 328, rfl⟩
abbrev main_v235 : Ref sig .tc := ⟨.hbm, 329, rfl⟩
abbrev main_v236 : Ref sig .tc := ⟨.hbm, 330, rfl⟩
abbrev main_c_66 : Ref sig .tc := ⟨.hbm, 331, rfl⟩
abbrev main_v237 : Ref sig .tc := ⟨.hbm, 332, rfl⟩
abbrev main_v238 : Ref sig .tc := ⟨.hbm, 333, rfl⟩
abbrev main_c_67 : Ref sig .tc := ⟨.hbm, 334, rfl⟩
abbrev main_v239 : Ref sig .tc := ⟨.hbm, 335, rfl⟩
abbrev main_v240 : Ref sig .tc := ⟨.hbm, 336, rfl⟩
abbrev main_v241 : Ref sig .tc := ⟨.hbm, 337, rfl⟩
abbrev main_c_68 : Ref sig .tc := ⟨.hbm, 338, rfl⟩
abbrev main_v242 : Ref sig .tc := ⟨.hbm, 339, rfl⟩
abbrev main_v243 : Ref sig .tc := ⟨.hbm, 340, rfl⟩
abbrev main_c_69 : Ref sig .tc := ⟨.hbm, 341, rfl⟩
abbrev main_v244 : Ref sig .tc := ⟨.hbm, 342, rfl⟩
abbrev main_v245 : Ref sig .tc := ⟨.hbm, 343, rfl⟩
abbrev main_v246 : Ref sig .tc := ⟨.hbm, 344, rfl⟩
abbrev main_c_70 : Ref sig .tc := ⟨.hbm, 345, rfl⟩
abbrev main_v247 : Ref sig .tc := ⟨.hbm, 346, rfl⟩
abbrev main_v248 : Ref sig .tc := ⟨.hbm, 347, rfl⟩
abbrev main_c_71 : Ref sig .tc := ⟨.hbm, 348, rfl⟩
abbrev main_v249 : Ref sig .tc := ⟨.hbm, 349, rfl⟩
abbrev main_v250 : Ref sig .tc := ⟨.hbm, 350, rfl⟩
abbrev main_v251 : Ref sig .tc := ⟨.hbm, 351, rfl⟩
abbrev main_v252 : Ref sig .tc := ⟨.hbm, 352, rfl⟩
abbrev main_v253 : Ref sig .tc := ⟨.hbm, 353, rfl⟩
abbrev main_v254 : Ref sig .tc := ⟨.hbm, 354, rfl⟩
abbrev main_v255 : Ref sig .tc := ⟨.hbm, 355, rfl⟩
abbrev main_v256 : Ref sig .tc := ⟨.hbm, 356, rfl⟩
abbrev main_v257 : Ref sig .tc := ⟨.hbm, 357, rfl⟩
abbrev main_v258 : Ref sig .tc := ⟨.hbm, 358, rfl⟩
abbrev main_v259 : Ref sig .tc := ⟨.hbm, 359, rfl⟩
abbrev main_v260 : Ref sig .tc := ⟨.hbm, 360, rfl⟩
abbrev main_v261 : Ref sig .tc := ⟨.hbm, 361, rfl⟩
abbrev main_v262 : Ref sig .tc := ⟨.hbm, 362, rfl⟩
abbrev main_cst_72 : Ref sig .tc := ⟨.hbm, 363, rfl⟩
abbrev main_v263 : Ref sig .tc := ⟨.hbm, 364, rfl⟩
abbrev main_v264 : Ref sig .tc := ⟨.hbm, 365, rfl⟩
abbrev main_v265 : Ref sig .tc := ⟨.hbm, 366, rfl⟩
abbrev main_v266 : Ref sig .tc := ⟨.hbm, 367, rfl⟩
abbrev main_v267 : Ref sig .tc := ⟨.hbm, 368, rfl⟩
abbrev main_v268 : Ref sig .tc := ⟨.hbm, 369, rfl⟩
abbrev main_c_73 : Ref sig .tc := ⟨.hbm, 370, rfl⟩
abbrev main_v269 : Ref sig .tc := ⟨.hbm, 371, rfl⟩
abbrev main_v270 : Ref sig .tc := ⟨.hbm, 372, rfl⟩
abbrev main_c_74 : Ref sig .tc := ⟨.hbm, 373, rfl⟩
abbrev main_v271 : Ref sig .tc := ⟨.hbm, 374, rfl⟩
abbrev main_v272 : Ref sig .tc := ⟨.hbm, 375, rfl⟩
abbrev main_v273 : Ref sig .tc := ⟨.hbm, 376, rfl⟩
abbrev main_c_75 : Ref sig .tc := ⟨.hbm, 377, rfl⟩
abbrev main_v274 : Ref sig .tc := ⟨.hbm, 378, rfl⟩
abbrev main_v275 : Ref sig .tc := ⟨.hbm, 379, rfl⟩
abbrev main_c_76 : Ref sig .tc := ⟨.hbm, 380, rfl⟩
abbrev main_v276 : Ref sig .tc := ⟨.hbm, 381, rfl⟩
abbrev main_v277 : Ref sig .tc := ⟨.hbm, 382, rfl⟩
abbrev main_v278 : Ref sig .tc := ⟨.hbm, 383, rfl⟩
abbrev main_c_77 : Ref sig .tc := ⟨.hbm, 384, rfl⟩
abbrev main_v279 : Ref sig .tc := ⟨.hbm, 385, rfl⟩
abbrev main_v280 : Ref sig .tc := ⟨.hbm, 386, rfl⟩
abbrev main_c_78 : Ref sig .tc := ⟨.hbm, 387, rfl⟩
abbrev main_v281 : Ref sig .tc := ⟨.hbm, 388, rfl⟩
abbrev main_v282 : Ref sig .tc := ⟨.hbm, 389, rfl⟩
abbrev main_v283 : Ref sig .tc := ⟨.hbm, 390, rfl⟩
abbrev main_v284 : Ref sig .tc := ⟨.hbm, 391, rfl⟩
abbrev main_v285 : Ref sig .tc := ⟨.hbm, 392, rfl⟩
abbrev main_v286 : Ref sig .tc := ⟨.hbm, 393, rfl⟩
abbrev main_v287 : Ref sig .tc := ⟨.hbm, 394, rfl⟩
abbrev main_v288 : Ref sig .tc := ⟨.hbm, 395, rfl⟩
abbrev main_v289 : Ref sig .tc := ⟨.hbm, 396, rfl⟩
abbrev main_v290 : Ref sig .tc := ⟨.hbm, 397, rfl⟩
abbrev main_v291 : Ref sig .tc := ⟨.hbm, 398, rfl⟩
abbrev main_v292 : Ref sig .tc := ⟨.hbm, 399, rfl⟩
abbrev main_v293 : Ref sig .tc := ⟨.hbm, 400, rfl⟩
abbrev main_v294 : Ref sig .tc := ⟨.hbm, 401, rfl⟩
abbrev main_v295 : Ref sig .tc := ⟨.hbm, 402, rfl⟩
abbrev main_v296 : Ref sig .tc := ⟨.hbm, 403, rfl⟩
abbrev main_v297 : Ref sig .tc := ⟨.hbm, 404, rfl⟩
abbrev main_v298 : Ref sig .tc := ⟨.hbm, 405, rfl⟩
abbrev main_v299 : Ref sig .tc := ⟨.hbm, 406, rfl⟩

abbrev nD : Nat := 1
abbrev τ : Topo := Topo.v7x

variable {F : FTy → Type} [FloatOps F]

class Facts₀ : Prop where
  slices_S32x3x512x512_S32x1x512x512_0_0_0_0 : S32x3x512x512.Slices ![0, 0, 0, 0] S32x1x512x512
  shapeCasts_S32x1x512x512_S32x512x512 : S32x1x512x512.ShapeCasts S32x512x512
  slices_S32x3x512x512_S32x1x512x512_0_1_0_0 : S32x3x512x512.Slices ![0, 1, 0, 0] S32x1x512x512
  slices_S32x3x512x512_S32x1x512x512_0_2_0_0 : S32x3x512x512.Slices ![0, 2, 0, 0] S32x1x512x512
  bcast_S_S32x512x512 : S_.BroadcastsInDim S32x512x512 (![] : Fin 0 → Fin S32x512x512.rank)
  bcast_S32x512x512_S32x512x512x1_0_1_2 : S32x512x512.BroadcastsInDim S32x512x512x1 (![0, 1, 2] : Fin 3 → Fin S32x512x512x1.rank)
  concatenates_S32x512x512x1_S32x512x512x1_S32x512x512x1_S32x512x512x3_d3 : Shape.Concatenates [S32x512x512x1, S32x512x512x1, S32x512x512x1] S32x512x512x3 3
  bcast_S32x512x512_S1x32x512x512_1_2_3 : S32x512x512.BroadcastsInDim S1x32x512x512 (![1, 2, 3] : Fin 3 → Fin S1x32x512x512.rank)
  bcast_S1x32x512x512_S3x32x512x512_0_1_2_3 : S1x32x512x512.BroadcastsInDim S3x32x512x512 (![0, 1, 2, 3] : Fin 4 → Fin S3x32x512x512.rank)
  transposes_S3x32x512x512_S32x3x512x512_1_0_2_3 : S3x32x512x512.Transposes [1, 0, 2, 3] S32x3x512x512
  gather_S3x33x33x33_S32x512x512x3_S3x32x512x512_0_123_n_n_123_3_3111_wf : GatherDims.WF S3x33x33x33 S32x512x512x3 S3x32x512x512 [0] [1, 2, 3] [] [1, 2, 3] [] 3 ![3, 1, 1, 1]

variable [Facts₀]

def gather_S3x33x33x33_S32x512x512x3_S3x32x512x512_0_123_n_n_123_3_3111 : GatherDims S3x33x33x33 S32x512x512x3 S3x32x512x512 where
  offsetDims := [0]
  collapsedSliceDims := [1, 2, 3]
  operandBatchingDims := []
  startIndicesBatchingDims := []
  startIndexMap := [1, 2, 3]
  indexVectorDim := 3
  sliceSizes := ![3, 1, 1, 1]
  wf := gather_S3x33x33x33_S32x512x512x3_S3x32x512x512_0_123_n_n_123_3_3111_wf

class Facts : Prop extends Facts₀ where

variable [Facts]
-- ==== Proof.KCover.lean ====
/-
  The kernel's output blocks cover the whole result array, and the table the kernel stages is the
  reshaped first argument.

  The kernel runs on a 32 × 32 grid. At grid point (b, h) its output window is the block of sizes
  [1, 3, 16, 512] at block index (b, 0, h, 0) of the [32, 3, 512, 512] result, written back at every
  point. Every index (i0, i1, i2, i3) of the result lies in the block of the point (i0, i2 / 16):
  the blocks tile the array.
-/
import proofs.«175942_j28200755265787_2_alg».proof.Proof.Gen.KernelIdeal.Value
import Idealize.ShloMosaic.Lib.Pipeline.Value
import Idealize.ShloMosaic.Lib.ValueIdx
import Idealize.ShloMosaic.Lib.StableHlo.Run

noncomputable section

namespace Cert.KernelIdeal.KCover

open Cert.KernelIdeal Cert.KernelIdeal.Gen Idealize.ShloMosaic Idealize.ShloMosaic.ValueIdx Idealize.ShloMosaic.TcCoe Idealize.SL.Sem

variable {F : FTy → Type} [FloatOps F]

/-! ## The index maps over the grid -/

/-- The printed index maps, decided over the 1024 grid points: the input image's window moves with the
    output's, the output's block index is (b, 0, h, 0) with b, h ≤ 31, and the table's window stays at
    block (0, 0). -/
theorem idx_facts : ∀ t : Fin cfg0.N, win0_1.index t = win0_2.index t
    ∧ win0_2.index t (0 : Fin 4) ≤ 31 ∧ win0_2.index t (1 : Fin 4) = 0
    ∧ win0_2.index t (2 : Fin 4) ≤ 31 ∧ win0_2.index t (3 : Fin 4) = 0
    ∧ win0_0.index t = ![0, 0] :=
  (by decide +kernel : ∀ t : Fin grid0.N, _)

/-- The output window's block index at point t in closed form: the grid is walked row-major, so point t
    is (t / 32, t % 32) and its block index (t / 32, 0, t % 32, 0). -/
theorem idx_closed : ∀ t : Fin cfg0.N, win0_2.index t = ![t.val / 32, 0, t.val % 32, 0] :=
  (by decide +kernel : ∀ t : Fin grid0.N, _)

/-- Every block index (q0, 0, q2, 0) with q0, q2 < 32 is SOME point's: the point q0 * 32 + q2. -/
theorem idx_onto (q0 : Fin 32) (q2 : Fin 32) : ∃ t : Fin cfg0.N, win0_2.index t = ![q0.val, 0, q2.val, 0] := by
  have h0 : q0.val < 32 := q0.isLt
  have h2 : q2.val < 32 := q2.isLt
  have hN : cfg0.N = 1024 := N_0
  refine ⟨⟨q0.val * 32 + q2.val, by omega⟩, ?_⟩
  rw [idx_closed]
  have e1 : (q0.val * 32 + q2.val) / 32 = q0.val := by omega
  have e2 : (q0.val * 32 + q2.val) % 32 = q2.val := by omega
  show ![(q0.val * 32 + q2.val) / 32, 0, (q0.val * 32 + q2.val) % 32, 0] = _
  rw [e1, e2]

/-! ## The output window's blocks -/

/-- An index of the result array is in point t's block iff each coordinate is in the block's range on
    its axis. -/
theorem mem_blk2 (t : Fin cfg0.N) (i : S32x3x512x512.Idx) :
    i ∈ ((cfg0.win 2).blk t).view.set ↔ ∀ a : Fin 4, win0_2.index t a * S1x3x16x512.size a ≤ (i a).val ∧ (i a).val < win0_2.index t a * S1x3x16x512.size a + S1x3x16x512.size a := by
  show i ∈ ((View.whole main_v2).slice (win0_2.rect t)).set ↔ _
  rw [View.set_slice_whole, Rect.mem_set_unit]
  exact Iff.rfl

/-- THE COVER: every index of the result array is in the block of a point that writes its block back —
    the point whose block index is (i0, 0, i2 / 16, 0). -/
theorem cover2 (i : S32x3x512x512.Idx) :
    ∃ t : Fin cfg0.N, (cfg0.win 2).flush t = true ∧ i ∈ ((cfg0.win 2).blk t).view.set := by
  have hi0 : (i 0).val < 32 := (i 0).isLt
  have hi1 : (i 1).val < 3 := (i 1).isLt
  have hi2 : (i 2).val < 512 := (i 2).isLt
  have hi3 : (i 3).val < 512 := (i 3).isLt
  obtain ⟨t, ht⟩ := idx_onto ⟨(i 0).val, hi0⟩ ⟨(i 2).val / 16, by omega⟩
  have q0 : win0_2.index t (0 : Fin 4) = (i 0).val := congrFun ht 0
  have q1 : win0_2.index t (1 : Fin 4) = 0 := congrFun ht 1
  have q2 : win0_2.index t (2 : Fin 4) = (i 2).val / 16 := congrFun ht 2
  have q3 : win0_2.index t (3 : Fin 4) = 0 := congrFun ht 3
  refine ⟨t, flush0_2 t, ?_⟩
  rw [mem_blk2]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 3 ≤ (i 1).val ∧ (i 1).val < win0_2.index t (1 : Fin 4) * 3 + 3; omega
  | ⟨2, _⟩ => show win0_2.index t (2 : Fin 4) * 16 ≤ (i 2).val ∧ (i 2).val < win0_2.index t (2 : Fin 4) * 16 + 16; omega
  | ⟨3, _⟩ => show win0_2.index t (3 : Fin 4) * 512 ≤ (i 3).val ∧ (i 3).val < win0_2.index t (3 : Fin 4) * 512 + 512; omega

/-! ## The windows' arrays, and the table as the region finds it -/

/-- The arrays the three windows stage: the table (converted to bf16), the image, the result. -/
theorem arrRef0 : Pipeline.arrRef spec0 0 = main_v1 := rfl
theorem arrRef1 : Pipeline.arrRef spec0 1 = main_arg1 := rfl
theorem arrRef2 : Pipeline.arrRef spec0 2 = main_v2 := rfl

/-- Before the region the host reshapes the [3, 33, 33, 33] argument to [99, 1089] and converts it to
    bf16; on extended reals a format change is the identity, so the table the region finds is the
    reshaped argument. -/
theorem V_table_eq (m : (ℓ : Loc nD τ sig) → Buf (Elt Ideal) ℓ) (c : Dev nD) :
    (V m c main_v1 : S99x1089.Idx → EReal)
      = (truncf .bf16 (shapeCast S99x1089 (m ((c : Thread nD τ).loc main_arg0) : S3x33x33x33.Idx → EReal)
          Facts₀.shapeCasts_S3x33x33x33_S99x1089 : FVec Ideal S99x1089 .f32) Facts₀.bitsLt_bf16_f32 : FVec Ideal S99x1089 .bf16) := by
  dsimp only [Gen.V, Gen.hostOps0]; after_results; rfl

/-- THE TABLE AT AN INDEX: a reshape keeps the row-major position, and position a * 1089 + k of the
    [3, 33, 33, 33] array is the index (a / 33, a % 33, k / 33, k % 33), since
    ((a / 33 * 33 + a % 33) * 33 + k / 33) * 33 + k % 33 = a * 1089 + k. -/
theorem V_table (m : (ℓ : Loc nD τ sig) → Buf (Elt Ideal) ℓ) (c : Dev nD) (a : Fin 99) (k : Fin 1089) :
    (V m c main_v1 : S99x1089.Idx → EReal) (ix2 a k)
      = (m ((c : Thread nD τ).loc main_arg0) : S3x33x33x33.Idx → EReal)
          (ix4 ⟨a.val / 33, by omega⟩ ⟨a.val % 33, by omega⟩ ⟨k.val / 33, by omega⟩ ⟨k.val % 33, by omega⟩) := by
  rw [V_table_eq, truncf_apply]
  refine shapeCast_apply _ _ _ _ ?_
  show (S3x33x33x33.rowMajor _).val = (S99x1089.rowMajor _).val
  rw [Shape.rowMajor_val_two, Shape.rowMajor_val_four]
  show ((a.val / 33 * 33 + a.val % 33) * 33 + k.val / 33) * 33 + k.val % 33 = a.val * 1089 + k.val
  omega

end Cert.KernelIdeal.KCover

end
-- ==== Proof.RefSpec.lean ====
/-
  What the reference computes at one pixel, written with the operations it performs and in its order. The three colour
  channels, scaled by 32 and clipped into [0, 32], are the coordinates X, Y, Z in the table's last, middle and first
  spatial axis; each coordinate's cell is its floor clipped into [0, 31], converted to a 32-bit integer; the weights
  are the distances to the cell. A table entry is fetched at integer indices that are first wrapped (a negative index
  counts from the end of the axis) and then clamped into the axis; the result is the sum of the eight corners of the
  cell, each times its three weights, added left to right.
-/
import Idealize.ShloMosaic.PureOps.Ideal
import Idealize.ShloMosaic.Lib.ValueIdx

noncomputable section

namespace Trilerp

open Idealize.ShloMosaic

/-- The literals 32, 1 and 0 as the programs spell them. -/
abbrev c32 : EReal := Ideal.ofBits .f32 0x42000000#32
abbrev c1 : EReal := Ideal.ofBits .f32 0x3F800000#32
abbrev c0 : EReal := Ideal.ofBits .f32 0x00000000#32

/-- Clipping into [lo, hi]: the smaller of `hi` and the larger of `lo` and `x`. -/
def clipE (x lo hi : EReal) : EReal := min hi (max lo x)

/-- A channel value as a coordinate in [0, 32]. -/
def coordE (v : EReal) : EReal := clipE (v * c32) c0 c32

/-- The cell of a coordinate: its floor clipped into [0, 32 - 1]. -/
def cellE (X : EReal) : EReal := clipE (Ideal.liftRound Int.floor X) c0 (c32 - c1)

/-- A negative index counts from the end of an axis of extent 33. -/
def wrapI (i : BitVec 32) : BitVec 32 := Scalar.select (IntOp.cmpi .slt i 0#32) (IntOp.addi i 33#32) i

/-- An index read signed and clamped into an axis of extent 33. -/
def clampI (i : BitVec 32) : Fin 33 := ⟨min i.toInt.toNat 32, by omega⟩

/-- The table entry at three integer indices. -/
def corner (L : Fin 33 → Fin 33 → Fin 33 → EReal) (zi yi xi : BitVec 32) : EReal :=
  L (clampI (wrapI zi)) (clampI (wrapI yi)) (clampI (wrapI xi))

/-- The reference's value at one pixel of one output channel: `L` is that channel's table, `r g b` the pixel's
    three channel values. -/
def refPix (L : Fin 33 → Fin 33 → Fin 33 → EReal) (r g b : EReal) : EReal :=
  let X := coordE r
  let Y := coordE g
  let Z := coordE b
  let x0 := cellE X
  let y0 := cellE Y
  let z0 := cellE Z
  let wx := X - x0
  let wy := Y - y0
  let wz := Z - z0
  let x0i := Ideal.fptosi 32 x0
  let y0i := Ideal.fptosi 32 y0
  let z0i := Ideal.fptosi 32 z0
  let x1i := IntOp.addi x0i 1#32
  let y1i := IntOp.addi y0i 1#32
  let z1i := IntOp.addi z0i 1#32
  corner L z0i y0i x0i * (c1 - wz) * (c1 - wy) * (c1 - wx)
    + corner L z0i y0i x1i * (c1 - wz) * (c1 - wy) * wx
    + corner L z0i y1i x0i * (c1 - wz) * wy * (c1 - wx)
    + corner L z0i y1i x1i * (c1 - wz) * wy * wx
    + corner L z1i y0i x0i * wz * (c1 - wy) * (c1 - wx)
    + corner L z1i y0i x1i * wz * (c1 - wy) * wx
    + corner L z1i y1i x0i * wz * wy * (c1 - wx)
    + corner L z1i y1i x1i * wz * wy * wx

end Trilerp

end
-- ==== Proof.KSpec.lean ====
/-
  What the kernel computes at one pixel, and the whole result array as one function of the two argument arrays. Per
  axis the kernel weighs ALL 33 grid points by the tent max 0 (1 - |k - coordinate|); the table's two inner axes are
  contracted jointly (one index k = 33·y + x below 1089 against the product of the y- and x-tents), the outer axis z
  afterwards against the z-tent.
-/
import proofs.«175942_j28200755265787_2_alg».proof.Proof.RefSpec

noncomputable section

open scoped BigOperators

namespace Trilerp

open Idealize.ShloMosaic Idealize.ShloMosaic.ValueIdx

/-- The grid point `k` as the kernel has it: the 32-bit counter `k`, read signed, as a float. -/
def gridE (k : Fin 33) : EReal := (((BitVec.ofNat 32 k.val).toInt : ℝ) : EReal)

/-- The tent centred at grid point `k`, at the coordinate `X`: max 0 (1 - |k - X|), the absolute value being the
    larger of a number and its negative. -/
def tentE (k : Fin 33) (X : EReal) : EReal := max c0 (c1 - max (gridE k - X) (-(gridE k - X)))

/-- The two inner coordinates of a joint index below 1089 = 33·33. -/
def kY (k : Fin 1089) : Fin 33 := ⟨k.val / 33, by have := k.isLt; omega⟩
def kX (k : Fin 1089) : Fin 33 := ⟨k.val % 33, Nat.mod_lt _ (by norm_num)⟩

/-- The kernel's value at one pixel of one output channel: `L2 z k` is that channel's table at outer index `z` and
    joint inner index `k`; `r g b` are the pixel's three channel values. -/
def kerPix (L2 : Fin 33 → Fin 1089 → EReal) (r g b : EReal) : EReal :=
  ∑ z : Fin 33, (∑ k : Fin 1089, L2 z k * (tentE (kY k) (coordE g) * tentE (kX k) (coordE r))) * tentE z (coordE b)

/-- The whole result array: at (batch, channel, row, column) the pixel's value for that channel's table. -/
def G (lut : (⟨4, ![3, 33, 33, 33]⟩ : Shape).Idx → EReal) (img : (⟨4, ![32, 3, 512, 512]⟩ : Shape).Idx → EReal) :
    (⟨4, ![32, 3, 512, 512]⟩ : Shape).Idx → EReal := fun i =>
  kerPix (fun z k => lut (ix4 (i 1) z (kY k) (kX k)))
    (img (ix4 (i 0) (0 : Fin 3) (i 2) (i 3))) (img (ix4 (i 0) (1 : Fin 3) (i 2) (i 3))) (img (ix4 (i 0) (2 : Fin 3) (i 2) (i 3)))

end Trilerp

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.KChunk.lean ====
/-
  One column chunk of the kernel body as a function of what it loads — three rows of pixels (one per colour
  channel, 16 × 128 of them) and the whole table — read at an index. The chunk flattens the 16 × 128 pixels to 2048
  columns p = 128·row + col, clips 32 · channel into [0, 32] per column, builds per axis the 33 × 2048 matrix of tent
  weights, multiplies the y- and x-tents into a 1089 × 2048 matrix (row 33·y + x), contracts it with the 99 × 1089
  table (row 33·c + z) on the matrix unit, weighs row (c, z) by the z-tent and sums over z: at (c, row, col) that is
  the pixel's value `Trilerp.kerPix` for channel c's rows of the table.
-/
import proofs.«175942_j28200755265787_2_alg».proof.Proof.Gen.KernelIdeal.Skeleton
import proofs.«175942_j28200755265787_2_alg».proof.Proof.KSpec
import proofs.«175942_j28200755265787_2_alg».proof.Proof.LibMatmul
import Idealize.ShloMosaic.Lib.Pipeline.Value
import Idealize.ShloMosaic.Lib.ValueIdx
import Idealize.ShloMosaic.PureOps.Ideal.Laws

noncomputable section

open scoped BigOperators

namespace Cert.KernelIdeal.KValue

open Cert.KernelIdeal Cert.KernelIdeal.Gen Idealize.ShloMosaic Idealize.ShloMosaic.ValueIdx Trilerp

/-! ## The chunk's pieces, as the body spells them -/

/-- A loaded 1 × 1 × 16 × 128 row of pixels, flattened to 2048 columns, scaled by 32 and clipped into [0, 32]. -/
def coordV (v : Vec Ideal S1x1x16x128 .f32) : FVec Ideal S2048 .f32 :=
  minimumf (broadcast S2048 (Scalar.ofBits .f32 0x42000000#32))
    (maximumf (broadcast S2048 (Scalar.ofBits .f32 0x00000000#32))
      (mulf (shapeCast S2048 (shapeCast S16x128 v shapeCasts_S1x1x16x128_S16x128) shapeCasts_S16x128_S2048)
        (broadcast S2048 (Scalar.ofBits .f32 0x42000000#32))))

/-- The grid points 0 … 32 down the rows, as floats. -/
def gridM : FVec Ideal S33x2048 .f32 := sitofp .f32 (iota .tc S33x2048 32 [0] iota_S33x2048_d0_w32)

/-- The 33 × 2048 matrix of tent weights of a row of coordinates. -/
def tentM (X : FVec Ideal S2048 .f32) : FVec Ideal S33x2048 .f32 :=
  maximumf (broadcast S33x2048 (Scalar.ofBits .f32 0x00000000#32))
    (subf (broadcast S33x2048 (Scalar.ofBits .f32 0x3F800000#32))
      (absf (subf gridM (broadcastTo S33x2048 (shapeCast S1x2048 X shapeCasts_S2048_S1x2048) broadcasts_S1x2048_S33x2048))))

/-- The contraction: y- and x-tents multiplied into 1089 rows, the table times that, rows (c, z) weighed by the
    z-tent and summed over z, laid out as the stored 1 × 3 × 16 × 128 block. -/
def blend (Tx Ty Tz : FVec Ideal S33x2048 .f32) (lut2 : Vec Ideal S99x1089 .bf16) : FVec Ideal S1x3x16x128 .f32 :=
  shapeCast S1x3x16x128
    (shapeCast S3x16x128
      (multiReduction .add [1] S3x2048
        (mulf
          (shapeCast S3x33x2048
            (matmul dot_S99x1089_S1089x2048_S99x2048_1_0_0_1_n_n none
              (shapeCast S99x1089 lut2 shapeCasts_S99x1089_S99x1089 : FVec Ideal S99x1089 .bf16)
              (truncf .bf16
                (shapeCast S1089x2048
                  (mulf
                    (broadcastTo S33x33x2048 (shapeCast S33x1x2048 Ty shapeCasts_S33x2048_S33x1x2048) broadcasts_S33x1x2048_S33x33x2048)
                    (broadcastTo S33x33x2048 (shapeCast S1x33x2048 Tx shapeCasts_S33x2048_S1x33x2048) broadcasts_S1x33x2048_S33x33x2048))
                  shapeCasts_S33x33x2048_S1089x2048)
                bitsLt_bf16_f32)
              (constant S99x2048 .f32 0x00000000#32))
            shapeCasts_S99x2048_S3x33x2048)
          (broadcastTo S3x33x2048 (shapeCast S1x33x2048 Tz shapeCasts_S33x2048_S1x33x2048) broadcasts_S1x33x2048_S3x33x2048))
        0x00000000#32 reduces_S3x33x2048_S3x2048 (.inl rfl) rfl)
      shapeCasts_S3x2048_S3x16x128)
    shapeCasts_S3x16x128_S1x3x16x128

/-- One chunk: from the three loaded rows (red, green, blue) and the loaded table to the stored block. -/
def chunk (r g b : Vec Ideal S1x1x16x128 .f32) (lut2 : Vec Ideal S99x1089 .bf16) : FVec Ideal S1x3x16x128 .f32 :=
  blend (tentM (coordV r)) (tentM (coordV g)) (tentM (coordV b)) lut2

/-! ## Read at an index -/

/-- The column of pixel (row, col). -/
def colOf (row : Fin 16) (col : Fin 128) : Fin 2048 := ⟨row.val * 128 + col.val, by have := row.isLt; have := col.isLt; omega⟩

theorem coordV_apply (v : Vec Ideal S1x1x16x128 .f32) (row : Fin 16) (col : Fin 128) :
    coordV v (ix1 (colOf row col)) = coordE (v (ix4 (0 : Fin 1) (0 : Fin 1) row col)) := by
  unfold coordV
  show min _ (max _ (shapeCast S2048 (shapeCast S16x128 v shapeCasts_S1x1x16x128_S16x128) shapeCasts_S16x128_S2048 (ix1 (colOf row col)) * _)) = _
  rw [shapeCast_apply _ shapeCasts_S16x128_S2048 (ix1 (colOf row col)) (ix2 row col)
      (by rw [Shape.rowMajor_val_two, Shape.rowMajor_val_one]; rfl),
    shapeCast_apply v shapeCasts_S1x1x16x128_S16x128 (ix2 row col) (ix4 (0 : Fin 1) (0 : Fin 1) row col)
      (by rw [Shape.rowMajor_val_two, Shape.rowMajor_val_four]; show ((0 * 1 + 0) * 16 + row.val) * 128 + col.val = row.val * 128 + col.val; omega)]
  rfl

theorem gridM_apply (k : Fin 33) (p : Fin 2048) : gridM (ix2 k p) = gridE k := by
  unfold gridM
  show FloatOps.sitofp .f32 (iota .tc S33x2048 32 [0] iota_S33x2048_d0_w32 (ix2 k p)) = _
  rw [iota_single_apply]
  rfl

theorem tentM_apply (X : FVec Ideal S2048 .f32) (k : Fin 33) (p : Fin 2048) :
    tentM X (ix2 k p) = tentE k (X (ix1 p)) := by
  unfold tentM
  show max _ (_ - max (gridM (ix2 k p) - broadcastTo S33x2048 (shapeCast S1x2048 X shapeCasts_S2048_S1x2048) broadcasts_S1x2048_S33x2048 (ix2 k p))
      (-(gridM (ix2 k p) - broadcastTo S33x2048 (shapeCast S1x2048 X shapeCasts_S2048_S1x2048) broadcasts_S1x2048_S33x2048 (ix2 k p)))) = _
  rw [gridM_apply, broadcastTo_apply _ broadcasts_S1x2048_S33x2048 (ix2 k p) (ix2 (0 : Fin 1) p)
      (fun a => by match a with | ⟨0, _⟩ => rfl | ⟨1, _⟩ => rfl),
    shapeCast_apply X shapeCasts_S2048_S1x2048 (ix2 (0 : Fin 1) p) (ix1 p)
      (by rw [Shape.rowMajor_val_two, Shape.rowMajor_val_one]; show p.val = 0 * 2048 + p.val; omega)]
  rfl

/-- Row 33·c + z of the 99-row table: channel `c`, outer grid point `z`. -/
def tabRow (c : Fin 3) (z : Fin 33) : Fin 99 := ⟨c.val * 33 + z.val, by have := c.isLt; have := z.isLt; omega⟩

/-- The sum over the middle axis of a 3 × 33 × 2048 array, from zero, at (c, p). -/
theorem laneSum (src : FVec Ideal S3x33x2048 .f32) (c : Fin 3) (p : Fin 2048) :
    multiReduction .add [1] S3x2048 src 0x00000000#32 reduces_S3x33x2048_S3x2048 (.inl rfl) rfl (ix2 c p)
      = ∑ z : Fin 33, src (ix3 c z p) := by
  refine (Ideal.multiReduction_add_single src 0x00000000#32 reduces_S3x33x2048_S3x2048 (.inl rfl) rfl (ix2 c p)).trans ?_
  show ∑ z : Fin 33, src (reduces_S3x33x2048_S3x2048.lift (ix2 c p) z) = _
  refine Finset.sum_congr rfl fun z _ => congrArg src ?_
  funext a; apply Fin.ext
  match a with
  | ⟨0, _⟩ => rfl
  | ⟨1, _⟩ => rfl
  | ⟨2, _⟩ => rfl

/-- The table's index in the contraction at output (a, p) and joint index k is (a, k). -/
theorem lhsIdx_eq (a : Fin 99) (p : Fin 2048) (q : dot_S99x1089_S1089x2048_S99x2048_1_0_0_1_n_n.contr.Idx) (k : Fin 1089)
    (hq : (q ⟨0, by decide⟩ : ℕ) = k.val) :
    dot_S99x1089_S1089x2048_S99x2048_1_0_0_1_n_n.lhsIdx (ix2 a p) q = ix2 a k := by
  funext ax; apply Fin.ext
  match ax with
  | ⟨0, _⟩ =>
    show (dot_S99x1089_S1089x2048_S99x2048_1_0_0_1_n_n.lhsIdx (ix2 a p) q (0 : Fin 2)).val = a.val
    unfold DotDims.lhsIdx
    simp [dot_S99x1089_S1089x2048_S99x2048_1_0_0_1_n_n]
    rfl
  | ⟨1, _⟩ =>
    show (dot_S99x1089_S1089x2048_S99x2048_1_0_0_1_n_n.lhsIdx (ix2 a p) q (1 : Fin 2)).val = k.val
    exact (DotDims.lhsIdx_val_of_single dot_S99x1089_S1089x2048_S99x2048_1_0_0_1_n_n (cl := (1 : Fin 2)) rfl (ix2 a p) q).trans hq

/-- The weights' index is (k, p). -/
theorem rhsIdx_eq (a : Fin 99) (p : Fin 2048) (q : dot_S99x1089_S1089x2048_S99x2048_1_0_0_1_n_n.contr.Idx) (k : Fin 1089)
    (hq : (q ⟨0, by decide⟩ : ℕ) = k.val) :
    dot_S99x1089_S1089x2048_S99x2048_1_0_0_1_n_n.rhsIdx (ix2 a p) q = ix2 k p := by
  funext ax; apply Fin.ext
  match ax with
  | ⟨0, _⟩ =>
    show (dot_S99x1089_S1089x2048_S99x2048_1_0_0_1_n_n.rhsIdx (ix2 a p) q (0 : Fin 2)).val = k.val
    exact (DotDims.rhsIdx_val_of_single dot_S99x1089_S1089x2048_S99x2048_1_0_0_1_n_n (cr := (0 : Fin 2)) rfl (ix2 a p) q).trans hq
  | ⟨1, _⟩ =>
    show (dot_S99x1089_S1089x2048_S99x2048_1_0_0_1_n_n.rhsIdx (ix2 a p) q (1 : Fin 2)).val = p.val
    unfold DotDims.rhsIdx
    simp [dot_S99x1089_S1089x2048_S99x2048_1_0_0_1_n_n]
    rfl

/-- The blend at (0, c, row, col): over z the table's row 33·c + z contracted with the y- and x-tents of the pixel's
    column, times the z-tent. -/
theorem blend_apply (Tx Ty Tz : FVec Ideal S33x2048 .f32) (lut2 : Vec Ideal S99x1089 .bf16) (c : Fin 3) (row : Fin 16) (col : Fin 128) :
    blend Tx Ty Tz lut2 (ix4 (0 : Fin 1) c row col)
      = ∑ z : Fin 33, (∑ k : Fin 1089, lut2 (ix2 (tabRow c z) k)
          * (Ty (ix2 (kY k) (colOf row col)) * Tx (ix2 (kX k) (colOf row col)))) * Tz (ix2 z (colOf row col)) := by
  unfold blend
  rw [shapeCast_apply _ shapeCasts_S3x16x128_S1x3x16x128 (ix4 (0 : Fin 1) c row col) (ix3 c row col)
      (by rw [Shape.rowMajor_val_three, Shape.rowMajor_val_four]
          show (c.val * 16 + row.val) * 128 + col.val = ((0 * 3 + c.val) * 16 + row.val) * 128 + col.val; omega),
    shapeCast_apply _ shapeCasts_S3x2048_S3x16x128 (ix3 c row col) (ix2 c (colOf row col))
      (by rw [Shape.rowMajor_val_two, Shape.rowMajor_val_three]
          show c.val * 2048 + (row.val * 128 + col.val) = (c.val * 16 + row.val) * 128 + col.val; omega)]
  refine (laneSum _ c (colOf row col)).trans ?_
  refine Finset.sum_congr rfl fun z _ => ?_
  show shapeCast S3x33x2048 _ shapeCasts_S99x2048_S3x33x2048 (ix3 c z (colOf row col))
      * broadcastTo S3x33x2048 (shapeCast S1x33x2048 Tz shapeCasts_S33x2048_S1x33x2048) broadcasts_S1x33x2048_S3x33x2048 (ix3 c z (colOf row col)) = _
  rw [shapeCast_apply _ shapeCasts_S99x2048_S3x33x2048 (ix3 c z (colOf row col)) (ix2 (tabRow c z) (colOf row col))
      (by rw [Shape.rowMajor_val_two, Shape.rowMajor_val_three]; rfl),
    broadcastTo_apply _ broadcasts_S1x33x2048_S3x33x2048 (ix3 c z (colOf row col)) (ix3 (0 : Fin 1) z (colOf row col))
      (fun a => by match a with | ⟨0, _⟩ => rfl | ⟨1, _⟩ => rfl | ⟨2, _⟩ => rfl),
    shapeCast_apply Tz shapeCasts_S33x2048_S1x33x2048 (ix3 (0 : Fin 1) z (colOf row col)) (ix2 z (colOf row col))
      (by rw [Shape.rowMajor_val_two, Shape.rowMajor_val_three]
          show z.val * 2048 + (colOf row col).val = (0 * 33 + z.val) * 2048 + (colOf row col).val; omega)]
  refine congrArg (· * Tz (ix2 z (colOf row col))) ?_
  refine (Cert.LibMatmul.matmul_zero_sum1 dot_S99x1089_S1089x2048_S99x2048_1_0_0_1_n_n none 1089 rfl rfl _ _
    (ix2 (tabRow c z) (colOf row col)) (fun k => ix2 (tabRow c z) k) (fun k => ix2 k (colOf row col))
    (fun q k hq => lhsIdx_eq (tabRow c z) (colOf row col) q k hq)
    (fun q k hq => rhsIdx_eq (tabRow c z) (colOf row col) q k hq)).trans ?_
  refine Finset.sum_congr rfl fun k _ => ?_
  rw [shapeCast_self]
  refine congrArg (lut2 (ix2 (tabRow c z) k) * ·) ?_
  rw [truncf_apply, shapeCast_apply _ shapeCasts_S33x33x2048_S1089x2048 (ix2 k (colOf row col)) (ix3 (kY k) (kX k) (colOf row col))
      (by rw [Shape.rowMajor_val_two, Shape.rowMajor_val_three]
          show ((k.val / 33) * 33 + k.val % 33) * 2048 + (colOf row col).val = k.val * 2048 + (colOf row col).val
          have := Nat.div_add_mod k.val 33; omega)]
  show broadcastTo S33x33x2048 (shapeCast S33x1x2048 Ty shapeCasts_S33x2048_S33x1x2048) broadcasts_S33x1x2048_S33x33x2048 (ix3 (kY k) (kX k) (colOf row col))
      * broadcastTo S33x33x2048 (shapeCast S1x33x2048 Tx shapeCasts_S33x2048_S1x33x2048) broadcasts_S1x33x2048_S33x33x2048 (ix3 (kY k) (kX k) (colOf row col)) = _
  rw [broadcastTo_apply _ broadcasts_S33x1x2048_S33x33x2048 (ix3 (kY k) (kX k) (colOf row col)) (ix3 (kY k) (0 : Fin 1) (colOf row col))
      (fun a => by match a with | ⟨0, _⟩ => rfl | ⟨1, _⟩ => rfl | ⟨2, _⟩ => rfl),
    shapeCast_apply Ty shapeCasts_S33x2048_S33x1x2048 (ix3 (kY k) (0 : Fin 1) (colOf row col)) (ix2 (kY k) (colOf row col))
      (by rw [Shape.rowMajor_val_two, Shape.rowMajor_val_three]
          show (kY k).val * 2048 + (colOf row col).val = ((kY k).val * 1 + 0) * 2048 + (colOf row col).val; omega),
    broadcastTo_apply _ broadcasts_S1x33x2048_S33x33x2048 (ix3 (kY k) (kX k) (colOf row col)) (ix3 (0 : Fin 1) (kX k) (colOf row col))
      (fun a => by match a with | ⟨0, _⟩ => rfl | ⟨1, _⟩ => rfl | ⟨2, _⟩ => rfl),
    shapeCast_apply Tx shapeCasts_S33x2048_S1x33x2048 (ix3 (0 : Fin 1) (kX k) (colOf row col)) (ix2 (kX k) (colOf row col))
      (by rw [Shape.rowMajor_val_two, Shape.rowMajor_val_three]
          show (kX k).val * 2048 + (colOf row col).val = (0 * 33 + (kX k).val) * 2048 + (colOf row col).val; omega)]

/-- THE CHUNK AT A PIXEL: at (0, c, row, col) the chunk holds the kernel's pixel value for channel c's 33 rows of the
    table and the three channel values loaded at (row, col). -/
theorem chunk_apply (r g b : Vec Ideal S1x1x16x128 .f32) (lut2 : Vec Ideal S99x1089 .bf16) (c : Fin 3) (row : Fin 16) (col : Fin 128) :
    chunk r g b lut2 (ix4 (0 : Fin 1) c row col)
      = kerPix (fun z k => lut2 (ix2 (tabRow c z) k))
          (r (ix4 (0 : Fin 1) (0 : Fin 1) row col)) (g (ix4 (0 : Fin 1) (0 : Fin 1) row col)) (b (ix4 (0 : Fin 1) (0 : Fin 1) row col)) := by
  unfold chunk
  rw [blend_apply]
  unfold kerPix
  refine Finset.sum_congr rfl fun z _ => ?_
  rw [tentM_apply, coordV_apply]
  refine congrArg (· * tentE z (coordE (b (ix4 (0 : Fin 1) (0 : Fin 1) row col)))) ?_
  refine Finset.sum_congr rfl fun k _ => ?_
  rw [tentM_apply, tentM_apply, coordV_apply, coordV_apply]

end Cert.KernelIdeal.KValue

end
-- ==== Proof.KPieces.lean ====
/-
  What the kernel body leaves in its output block. The body runs four column chunks; chunk j loads the three channel
  rows of columns 128·j … 128·j + 127 of the staged image block and the whole staged table, and stores its
  1 × 3 × 16 × 128 result at column offset 128·j of the staged output block. Every stored piece is a tile of ONE
  function of the block index — at (0, c, row, column) the pixel value for channel c's rows of the table and the
  image block's three channel values at (row, column) — and the four pieces tile the block, so the block ends
  holding that function.
-/
import proofs.«175942_j28200755265787_2_alg».proof.Proof.Gen.KernelIdeal.Frame
import proofs.«175942_j28200755265787_2_alg».proof.Proof.KChunk
import Idealize.ShloMosaic.Lib.Pipeline.Value
import Idealize.ShloMosaic.Lib.Tactic

noncomputable section

open scoped BigOperators

namespace Cert.KernelIdeal.KValue

open Cert.KernelIdeal Cert.KernelIdeal.Gen Idealize.ShloMosaic Idealize.ShloMosaic.ValueIdx Idealize.ShloMosaic.TcCoe
open Idealize.SL.Sem Trilerp

/-! ## Each chunk's stored value is the chunk function of its loads -/

theorem pay_chunk0 (R G B : Vec Ideal S1x1x16x128 .f32) (T : Vec Ideal S99x1089 .bf16) :
    k0_pay6 (k0_pay2 G) (k0_pay3 B) (k0_pay4 (F := Ideal)) (k0_pay5 R) T = chunk R G B T := rfl

theorem pay_chunk1 (R G B : Vec Ideal S1x1x16x128 .f32) (T : Vec Ideal S99x1089 .bf16) :
    k0_pay11 (k0_pay7 B) (k0_pay8 (F := Ideal)) (k0_pay9 R) (k0_pay10 G) T = chunk R G B T := rfl

theorem pay_chunk2 (R G B : Vec Ideal S1x1x16x128 .f32) (T : Vec Ideal S99x1089 .bf16) :
    k0_pay17 (k0_pay13 B) (k0_pay14 (F := Ideal)) (k0_pay15 (k0_pay12 R)) (k0_pay16 G) T = chunk R G B T := rfl

theorem pay_chunk3 (R G B : Vec Ideal S1x1x16x128 .f32) (T : Vec Ideal S99x1089 .bf16) :
    k0_pay1 (k0_pay21 (k0_pay18 R)) (k0_pay22 (k0_pay19 G)) (k0_pay23 B) (FloatOps.ofBits .f32 0#32) T = chunk R G B T := rfl

/-! ## The block as one function of its index -/

/-- The image block's index of channel `ch` at the row and column of the block index `y`. -/
def pixAt (y : S1x3x16x512.Idx) (ch : Fin 3) : S1x3x16x512.Idx :=
  ix4 (0 : Fin 1) ch (⟨(y 2).val, (y 2).isLt⟩ : Fin 16) (⟨(y 3).val, (y 3).isLt⟩ : Fin 512)

/-- What the output block ends holding, as a function of the staged table `x0` and the staged image block `x1`. -/
def blockG (x0 : Vec Ideal S99x1089 .bf16) (x1 : Vec Ideal S1x3x16x512 .f32) : S1x3x16x512.Idx → EReal := fun y =>
  kerPix (fun z k => x0 (ix2 (tabRow (⟨(y 1).val, (y 1).isLt⟩ : Fin 3) z) k)) (x1 (pixAt y 0)) (x1 (pixAt y 1)) (x1 (pixAt y 2))

theorem hz2 : (![0, 0] : Fin 2 → Nat) = fun _ => 0 := funext fun a => by fin_cases a <;> rfl

/-- A chunk of the loads at column offset `o`, at a local index, is the block function at that index placed at
    column offset `o`. -/
theorem piece_eq (o : Nat) (x0 : Vec Ideal S99x1089 .bf16) (x1 : Vec Ideal S1x3x16x512 .f32)
    (inbO : ∀ a, (![0, 0, 0, o] : Fin 4 → Nat) a + (![1, 3, 16, 128] : Fin 4 → Nat) a ≤ S1x3x16x512.size a)
    (inbR : ∀ a, (![0, 0, 0, o] : Fin 4 → Nat) a + S1x1x16x128.size a ≤ S1x3x16x512.size a)
    (inbG : ∀ a, (![0, 1, 0, o] : Fin 4 → Nat) a + S1x1x16x128.size a ≤ S1x3x16x512.size a)
    (inbB : ∀ a, (![0, 2, 0, o] : Fin 4 → Nat) a + S1x1x16x128.size a ≤ S1x3x16x512.size a)
    (x : (Rect.unit (s := S1x3x16x512) ![0, 0, 0, o] ![1, 3, 16, 128] inbO).shape.Idx) :
    chunk (View.ld x1 (Rect.unit (s := S1x3x16x512) ![0, 0, 0, o] S1x1x16x128.size inbR))
        (View.ld x1 (Rect.unit (s := S1x3x16x512) ![0, 1, 0, o] S1x1x16x128.size inbG))
        (View.ld x1 (Rect.unit (s := S1x3x16x512) ![0, 2, 0, o] S1x1x16x128.size inbB)) x0 x
      = blockG x0 x1 ((Rect.unit (s := S1x3x16x512) ![0, 0, 0, o] ![1, 3, 16, 128] inbO).emb x) := by
  obtain ⟨a, c, row, col, rfl⟩ : ∃ (a : Fin 1) (c : Fin 3) (row : Fin 16) (col : Fin 128), x = ix4 a c row col :=
    ⟨x 0, x 1, x 2, x 3, eq_ix4 x⟩
  obtain rfl : a = 0 := Subsingleton.elim _ _
  rw [chunk_apply]
  unfold blockG
  have hT : (fun (z : Fin 33) (k : Fin 1089) => x0 (ix2 (tabRow c z) k))
      = fun (z : Fin 33) (k : Fin 1089) => x0 (ix2 (tabRow (⟨((Rect.unit (s := S1x3x16x512) ![0, 0, 0, o] ![1, 3, 16, 128] inbO).emb (ix4 (0 : Fin 1) c row col) 1).val,
          ((Rect.unit (s := S1x3x16x512) ![0, 0, 0, o] ![1, 3, 16, 128] inbO).emb (ix4 (0 : Fin 1) c row col) 1).isLt⟩ : Fin 3) z) k) := by
    funext z k
    refine congrArg (fun t => x0 (ix2 (tabRow t z) k)) (Fin.ext ?_)
    show c.val = 3 - 3 + 1 * c.val
    omega
  have hP : ∀ (ch : Fin 3) (inb : ∀ a, (![0, ch.val, 0, o] : Fin 4 → Nat) a + S1x1x16x128.size a ≤ S1x3x16x512.size a),
      View.ld x1 (Rect.unit (s := S1x3x16x512) ![0, ch.val, 0, o] S1x1x16x128.size inb) (ix4 (0 : Fin 1) (0 : Fin 1) row col)
        = x1 (pixAt ((Rect.unit (s := S1x3x16x512) ![0, 0, 0, o] ![1, 3, 16, 128] inbO).emb (ix4 (0 : Fin 1) c row col)) ch) := by
    intro ch inb
    refine congrArg x1 (funext fun a => Fin.ext ?_)
    match a with
    | ⟨0, _⟩ => rfl
    | ⟨1, _⟩ => show ch.val + 1 * 0 = ch.val; omega
    | ⟨2, _⟩ => rfl
    | ⟨3, _⟩ => rfl
  exact congr (congr (congr (congrArg kerPix hT) (hP 0 inbR)) (hP 1 inbG)) (hP 2 inbB)

/-! ## The body's output block -/

/-- What the run leaves in the output's staging buffer, whatever memrefs it runs on and whatever the grid point: the
    block function of the staged table and the staged image block. -/
theorem out_eq (c : Dev nD) (i : grid0.Coords) (arg2 : Memref sig .tc .vmem S99x1089 .bf16) (harg2 : arg2.IsWhole)
    (arg3 : Memref sig .tc .vmem S1x3x16x512 .f32) (harg3 : arg3.IsWhole) (arg4 : Memref sig .tc .vmem S1x3x16x512 .f32) (harg4 : arg4.IsWhole)
    (x0 : Vec Ideal S99x1089 .bf16) (x1 : Vec Ideal S1x3x16x512 .f32) :
    out0_A_2 (F := Ideal) c i arg2 harg2 arg3 harg3 arg4 harg4 x0 x1 = blockG x0 x1 := by
  unfold out0_A_2
  rw [View.read_writes_eq_canon _ _ _ (cover0_A_2 c i arg2 harg2 arg3 harg3 arg4 harg4 x0 x1)]
  funext y
  refine View.canon_apply_of_pieces (blockG x0 x1) _ ?_ y (cover0_A_2 c i arg2 harg2 arg3 harg3 arg4 harg4 x0 x1 y)
  unfold kernelRun0_A
  dsimp only
  sl_unfold_words
  intro p hp x
  simp only [List.mem_cons, List.not_mem_nil, or_false] at hp
  rcases hp with rfl | rfl | rfl | rfl
  · show k0_pay1 _ _ _ _ _ x = _
    rw [pay_chunk3]
    simp only [View.readAt_eq_ld, harg3.read_unread, harg2.read_unread, View.ld_unit_zero (S := S99x1089) hz2]
    exact piece_eq 384 x0 x1 _ _ _ _ x
  · show k0_pay17 _ _ _ _ _ x = _
    rw [pay_chunk2]
    simp only [View.readAt_eq_ld, harg3.read_unread, harg2.read_unread, View.ld_unit_zero (S := S99x1089) hz2]
    exact piece_eq 256 x0 x1 _ _ _ _ x
  · show k0_pay11 _ _ _ _ _ x = _
    rw [pay_chunk1]
    simp only [View.readAt_eq_ld, harg3.read_unread, harg2.read_unread, View.ld_unit_zero (S := S99x1089) hz2]
    exact piece_eq 128 x0 x1 _ _ _ _ x
  · show k0_pay6 _ _ _ _ _ x = _
    rw [pay_chunk0]
    simp only [View.readAt_eq_ld, harg3.read_unread, harg2.read_unread, View.ld_unit_zero (S := S99x1089) hz2]
    exact piece_eq 0 x0 x1 _ _ _ _ x

end Cert.KernelIdeal.KValue

end
-- ==== Proof.KFinal.lean ====
/-
  The kernel's run, read: the result array is one function of the two argument arrays.

  At every grid point the body leaves in its output block the block function of the staged table and the
  staged image block. The staged table is the lookup table reshaped to 99 × 1089 (row 33 c + z, column
  33 y + x), the staged image block is block (b, 0, h, 0) of the image, and the output block is written back to
  block (b, 0, h, 0) of the result: so what each point writes back is its block of the whole-array function,
  and since the 32 × 32 blocks cover the result array, the array ends holding that function.
-/
import proofs.«175942_j28200755265787_2_alg».proof.Proof.Gen.KernelIdeal.Value
import proofs.«175942_j28200755265787_2_alg».proof.Proof.KCover
import proofs.«175942_j28200755265787_2_alg».proof.Proof.KPieces
import Idealize.ShloMosaic.Lib.Pipeline.Value
import Idealize.ShloMosaic.Lib.ValueIdx

noncomputable section

open scoped BigOperators

namespace Cert.KernelIdeal.KValue

open Cert.KernelIdeal Cert.KernelIdeal.Gen Cert.KernelIdeal.KCover Idealize.ShloMosaic Idealize.ShloMosaic.ValueIdx
open Idealize.ShloMosaic.TcCoe Idealize.SL.Sem Trilerp
open Idealize.ShloMosaic.Pipeline (Dat)

/-! ## The block function against the whole-array function -/

/-- If the staged table is the reshaped lookup table and the staged image block is block (q0, 0, q2, 0) of the
    image, the block function at the block index y is the whole-array function at the index
    (q0, y1, 16 q2 + y2, y3): row 33 c + z of the reshaped table is (c, z) of the lookup table, the joint inner
    index k is (k / 33, k % 33), and the pixel's three channel values are read at the same row and column. -/
theorem blockG_eq (x0 : Vec Ideal S99x1089 .bf16) (x1 : Vec Ideal S1x3x16x512 .f32)
    (lut : S3x33x33x33.Idx → EReal) (img : S32x3x512x512.Idx → EReal) (q0 q2 : Fin 32)
    (h0 : ∀ (a : Fin 99) (k : Fin 1089), x0 (ix2 a k)
      = lut (ix4 ⟨a.val / 33, by omega⟩ ⟨a.val % 33, by omega⟩ ⟨k.val / 33, by omega⟩ ⟨k.val % 33, by omega⟩))
    (h1 : ∀ (ch : Fin 3) (row : Fin 16) (col : Fin 512), x1 (ix4 (0 : Fin 1) ch row col)
      = img (ix4 q0 ch ⟨q2.val * 16 + row.val, by omega⟩ col))
    (y : S1x3x16x512.Idx) :
    blockG x0 x1 y = G lut img (ix4 q0 (⟨(y 1).val, (y 1).isLt⟩ : Fin 3)
      (⟨q2.val * 16 + (y 2).val, by have h : (y 2).val < 16 := (y 2).isLt; omega⟩ : Fin 512) (⟨(y 3).val, (y 3).isLt⟩ : Fin 512)) := by
  unfold blockG G pixAt
  have hT : (fun (z : Fin 33) (k : Fin 1089) => x0 (ix2 (tabRow (⟨(y 1).val, (y 1).isLt⟩ : Fin 3) z) k))
      = fun (z : Fin 33) (k : Fin 1089) => lut (ix4 (⟨(y 1).val, (y 1).isLt⟩ : Fin 3) z (kY k) (kX k)) := by
    funext z k
    rw [h0]
    have hy : (y 1).val < 3 := (y 1).isLt
    refine congrArg lut (funext fun a => Fin.ext ?_)
    match a with
    | ⟨0, _⟩ => show ((y 1).val * 33 + z.val) / 33 = (y 1).val; omega
    | ⟨1, _⟩ => show ((y 1).val * 33 + z.val) % 33 = z.val; omega
    | ⟨2, _⟩ => rfl
    | ⟨3, _⟩ => rfl
  rw [hT, h1, h1, h1]

/-! ## The input blocks at a grid point -/

variable (m : (ℓ : Loc nD τ sig) → Buf (Elt Ideal) ℓ) (ρ : Dev nD → PrngReg)

/-- The lookup table and the image as launched. -/
abbrev lutOf (c : Dev nD) : S3x33x33x33.Idx → EReal := m ((c : Thread nD τ).loc main_arg0)
abbrev imgOf (c : Dev nD) : S32x3x512x512.Idx → EReal := m ((c : Thread nD τ).loc main_arg1)

/-- The table's window is staged whole (its block index is (0, 0) at every point): its block at a point is
    the array the region finds, the reshaped lookup table. -/
theorem iblk0_apply (c : Dev nD) (t : Fin cfg0.N) (a : Fin 99) (k : Fin 1089) :
    (iblk m c 0 t : S99x1089.Idx → EReal) (ix2 a k)
      = lutOf m c (ix4 ⟨a.val / 33, by omega⟩ ⟨a.val % 33, by omega⟩ ⟨k.val / 33, by omega⟩ ⟨k.val % 33, by omega⟩) := by
  refine Eq.trans ?_ (V_table m c a k)
  show (V m c main_v1 : S99x1089.Idx → EReal) (((cfg0.win 0).blk t).view.emb (ix2 a k)) = _
  refine congrArg (V m c main_v1 : S99x1089.Idx → EReal) (funext fun d => Fin.ext ?_)
  obtain ⟨-, -, -, -, -, e0⟩ := idx_facts t
  have e00 : win0_0.index t (0 : Fin 2) = 0 := congrFun e0 0
  have e01 : win0_0.index t (1 : Fin 2) = 0 := congrFun e0 1
  match d with
  | ⟨0, _⟩ => show win0_0.index t (0 : Fin 2) * 99 + 1 * a.val = a.val; omega
  | ⟨1, _⟩ => show win0_0.index t (1 : Fin 2) * 1089 + 1 * k.val = k.val; omega

/-- The image's window moves with the output's: its block at a point is block (b, 0, h, 0) of the image as
    launched, (b, 0, h, 0) the output's block index there. -/
theorem iblk1_apply (c : Dev nD) (t : Fin cfg0.N) (hb0 : win0_2.index t (0 : Fin 4) < 32) (hb2 : win0_2.index t (2 : Fin 4) < 32)
    (ch : Fin 3) (row : Fin 16) (col : Fin 512) :
    (iblk m c 1 t : S1x3x16x512.Idx → EReal) (ix4 (0 : Fin 1) ch row col)
      = imgOf m c (ix4 (⟨win0_2.index t (0 : Fin 4), hb0⟩ : Fin 32) ch
          (⟨win0_2.index t (2 : Fin 4) * 16 + row.val, by omega⟩ : Fin 512) col) := by
  show (V m c main_arg1 : S32x3x512x512.Idx → EReal) (((cfg0.win 1).blk t).view.emb (ix4 (0 : Fin 1) ch row col)) = _
  rw [V_main_arg1]
  refine congrArg (m ((c : Thread nD τ).loc main_arg1) : S32x3x512x512.Idx → EReal) (funext fun d => Fin.ext ?_)
  obtain ⟨e1, -, z1, -, z3, -⟩ := idx_facts t
  have e10 : win0_1.index t (0 : Fin 4) = win0_2.index t (0 : Fin 4) := congrFun e1 0
  have e11 : win0_1.index t (1 : Fin 4) = win0_2.index t (1 : Fin 4) := congrFun e1 1
  have e12 : win0_1.index t (2 : Fin 4) = win0_2.index t (2 : Fin 4) := congrFun e1 2
  have e13 : win0_1.index t (3 : Fin 4) = win0_2.index t (3 : Fin 4) := congrFun e1 3
  match d with
  | ⟨0, _⟩ => show win0_1.index t (0 : Fin 4) * 1 + 1 * 0 = win0_2.index t (0 : Fin 4); omega
  | ⟨1, _⟩ => show win0_1.index t (1 : Fin 4) * 3 + 1 * ch.val = ch.val; omega
  | ⟨2, _⟩ => show win0_1.index t (2 : Fin 4) * 16 + 1 * row.val = win0_2.index t (2 : Fin 4) * 16 + row.val; omega
  | ⟨3, _⟩ => show win0_1.index t (3 : Fin 4) * 512 + 1 * col.val = col.val; omega

/-! ## What each point writes back, the final array, the run -/

/-- WHAT POINT t WRITES BACK is block t of the whole-array function of the arguments as launched. -/
theorem flushed_eq (c : Dev nD) (t : Fin cfg0.N) :
    (dats m 0 c).flushed 2 t = ((cfg0.win 2).blk t).view.read (Elt Ideal) (G (lutOf m c) (imgOf m c)) := by
  rw [Value.flushed2_A, out_eq]
  obtain ⟨-, b0, z1, b2, z3, -⟩ := idx_facts t
  have hb0 : win0_2.index t (0 : Fin 4) < 32 := by omega
  have hb2 : win0_2.index t (2 : Fin 4) < 32 := by omega
  funext y
  show blockG (iblk m c 0 t) (iblk m c 1 t) y = G (lutOf m c) (imgOf m c) (((cfg0.win 2).blk t).view.emb y)
  refine (blockG_eq (iblk m c 0 t) (iblk m c 1 t) (lutOf m c) (imgOf m c) ⟨win0_2.index t (0 : Fin 4), hb0⟩ ⟨win0_2.index t (2 : Fin 4), hb2⟩
    (iblk0_apply m c t) (iblk1_apply m c t hb0 hb2) y).trans ?_
  refine congrArg (G (lutOf m c) (imgOf m c)) (funext fun a => Fin.ext ?_)
  have hy0 : (y 0).val < 1 := (y 0).isLt
  match a with
  | ⟨0, _⟩ => show win0_2.index t (0 : Fin 4) = win0_2.index t (0 : Fin 4) * 1 + 1 * (y 0).val; omega
  | ⟨1, _⟩ => show (y 1).val = win0_2.index t (1 : Fin 4) * 3 + 1 * (y 1).val; omega
  | ⟨2, _⟩ => show win0_2.index t (2 : Fin 4) * 16 + (y 2).val = win0_2.index t (2 : Fin 4) * 16 + 1 * (y 2).val; omega
  | ⟨3, _⟩ => show (y 3).val = win0_2.index t (3 : Fin 4) * 512 + 1 * (y 3).val; omega

/-- THE RESULT ARRAY after the run: the output's blocks cover it, so it is the whole-array function of the
    arguments as launched. -/
theorem final (c : Dev nD) : (dats m 0 c).arrAt 2 cfg0.N = G (lutOf m c) (imgOf m c) :=
  (dats m 0 c).arrAt_eq_of_cover 2 _ (fun t _ => flushed_eq m c t) cover2

/-- The kernel's run: the result array is the whole-array function of the arguments, which are unchanged. -/
theorem run : θ_run defs (onTc (τ := τ) (main (F := Ideal))) ⟨m, fun _ => 0, ρ⟩ fun r => ∀ c : Dev nD,
      r.2.mem ((c : Thread nD τ).loc main_v2) = G (lutOf m c) (imgOf m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KValue

end
-- ==== Proof.RefReadGather.lean ====
/-
  Reading a table lookup at one index. The table has four axes of extents 3, 33, 33, 33; the array of start indices has
  extents 32, 512, 512, 3, its last axis holding the three start components (for table axes 1, 2, 3, in that order). The
  lookup keeps the table's axis 0 whole (the result's axis 0) and takes one entry on each of the other three, so the
  result has extents 3, 32, 512, 512 and its element (c, b, h, w) is the table's entry at channel c and at the three start
  components stored at (b, h, w, ·), each read as a signed integer and clamped into [0, 32].
-/
import Idealize.ShloMosaic.Lib.ValueIdx
import Idealize.ShloMosaic.Lib.Pipeline.Value

noncomputable section

namespace Cert.ReferenceIdeal.RefValue

open Idealize.ShloMosaic Idealize.ShloMosaic.ValueIdx

/-- The lookup's dimension numbers: result axis 0 is the offset axis, table axes 1, 2, 3 are collapsed and are the ones
    the start components address, the start components sit on axis 3 of the index array, the slice is 3 x 1 x 1 x 1. -/
abbrev lutDims (wf : GatherDims.WF ⟨4, ![3, 33, 33, 33]⟩ ⟨4, ![32, 512, 512, 3]⟩ ⟨4, ![3, 32, 512, 512]⟩
      [0] [1, 2, 3] [] [1, 2, 3] [] 3 ![3, 1, 1, 1]) :
    GatherDims ⟨4, ![3, 33, 33, 33]⟩ ⟨4, ![32, 512, 512, 3]⟩ ⟨4, ![3, 32, 512, 512]⟩ where
  offsetDims := [0]
  collapsedSliceDims := [1, 2, 3]
  operandBatchingDims := []
  startIndicesBatchingDims := []
  startIndexMap := [1, 2, 3]
  indexVectorDim := 3
  sliceSizes := ![3, 1, 1, 1]
  wf := wf

/-- An integer read signed and clamped into [0, 32]. -/
abbrev clamp32 {w : Nat} (i : BitVec w) : Fin 33 := ⟨min i.toInt.toNat 32, by omega⟩

/-- The lookup read at (c, b, h, w). -/
theorem gather_lut_apply {α : Type} {w : Nat}
    (wf : GatherDims.WF ⟨4, ![3, 33, 33, 33]⟩ ⟨4, ![32, 512, 512, 3]⟩ ⟨4, ![3, 32, 512, 512]⟩
      [0] [1, 2, 3] [] [1, 2, 3] [] 3 ![3, 1, 1, 1])
    (x : (⟨4, ![3, 33, 33, 33]⟩ : Shape).Idx → α) (idx : IVec ⟨4, ![32, 512, 512, 3]⟩ w)
    (c : Fin 3) (b : Fin 32) (h v : Fin 512) :
    Host.gather (lutDims wf) x idx (ix4 c b h v)
      = x (ix4 c (clamp32 (idx (ix4 b h v 0))) (clamp32 (idx (ix4 b h v 1))) (clamp32 (idx (ix4 b h v 2)))) := by
  unfold Host.gather
  congr 1
  funext a
  refine Fin.ext ?_
  show (lutDims wf).start (ix4 c b h v) idx a + (lutDims wf).batchCoord (ix4 c b h v) a
    + (lutDims wf).offCoord (ix4 c b h v) a = _
  rw [GatherDims.batchCoord_eq_zero _ _ _ List.not_mem_nil]
  simp only [Nat.add_zero]
  match a with
  | ⟨0, h0⟩ =>
    have hm : (⟨0, h0⟩ : Fin _) ∉ (lutDims wf).startIndexMap := by
      show ¬ ((⟨0, by decide⟩ : Fin 4) ∈ ([1, 2, 3] : List (Fin 4))); decide
    have hk : (⟨0, h0⟩ : Fin _) ∈ (lutDims wf).sKept :=
      (GatherDims.mem_sKept _ _).mpr ⟨hm, List.not_mem_nil⟩
    unfold GatherDims.start
    rw [dif_neg hm]
    unfold GatherDims.offCoord
    rw [dif_pos hk, Nat.zero_add]
    rfl
  | ⟨1, h1⟩ =>
    have hc : (⟨1, h1⟩ : Fin _) ∈ (lutDims wf).collapsedSliceDims := by
      show (⟨1, by decide⟩ : Fin 4) ∈ ([1, 2, 3] : List (Fin 4)); decide
    have hm : (⟨1, h1⟩ : Fin _) ∈ (lutDims wf).startIndexMap := hc
    rw [GatherDims.offCoord_eq_zero _ _ _ (fun hh => ((GatherDims.mem_sKept _ _).mp hh).1 hc)]
    unfold GatherDims.start
    rw [dif_pos hm]
    have hsi : (lutDims wf).siIdx (ix4 c b h v) ⟨List.idxOf (⟨1, h1⟩ : Fin _) (lutDims wf).startIndexMap,
        List.idxOf_lt_length_iff.2 hm⟩ = ix4 b h v 0 := by
      funext e; refine Fin.ext ?_
      match e with
      | ⟨0, _⟩ => rfl
      | ⟨1, _⟩ => rfl
      | ⟨2, _⟩ => rfl
      | ⟨3, _⟩ => rfl
    rw [hsi]
    rfl
  | ⟨2, h2⟩ =>
    have hc : (⟨2, h2⟩ : Fin _) ∈ (lutDims wf).collapsedSliceDims := by
      show (⟨2, by decide⟩ : Fin 4) ∈ ([1, 2, 3] : List (Fin 4)); decide
    have hm : (⟨2, h2⟩ : Fin _) ∈ (lutDims wf).startIndexMap := hc
    rw [GatherDims.offCoord_eq_zero _ _ _ (fun hh => ((GatherDims.mem_sKept _ _).mp hh).1 hc)]
    unfold GatherDims.start
    rw [dif_pos hm]
    have hsi : (lutDims wf).siIdx (ix4 c b h v) ⟨List.idxOf (⟨2, h2⟩ : Fin _) (lutDims wf).startIndexMap,
        List.idxOf_lt_length_iff.2 hm⟩ = ix4 b h v 1 := by
      funext e; refine Fin.ext ?_
      match e with
      | ⟨0, _⟩ => rfl
      | ⟨1, _⟩ => rfl
      | ⟨2, _⟩ => rfl
      | ⟨3, _⟩ => rfl
    rw [hsi]
    rfl
  | ⟨3, h3⟩ =>
    have hc : (⟨3, h3⟩ : Fin _) ∈ (lutDims wf).collapsedSliceDims := by
      show (⟨3, by decide⟩ : Fin 4) ∈ ([1, 2, 3] : List (Fin 4)); decide
    have hm : (⟨3, h3⟩ : Fin _) ∈ (lutDims wf).startIndexMap := hc
    rw [GatherDims.offCoord_eq_zero _ _ _ (fun hh => ((GatherDims.mem_sKept _ _).mp hh).1 hc)]
    unfold GatherDims.start
    rw [dif_pos hm]
    have hsi : (lutDims wf).siIdx (ix4 c b h v) ⟨List.idxOf (⟨3, h3⟩ : Fin _) (lutDims wf).startIndexMap,
        List.idxOf_lt_length_iff.2 hm⟩ = ix4 b h v 2 := by
      funext e; refine Fin.ext ?_
      match e with
      | ⟨0, _⟩ => rfl
      | ⟨1, _⟩ => rfl
      | ⟨2, _⟩ => rfl
      | ⟨3, _⟩ => rfl
    rw [hsi]
    rfl

/-- The shape of one column of start components, and of the three columns joined. -/
abbrev shCol : Shape := ⟨4, ![32, 512, 512, 1]⟩
abbrev shCols : Shape := ⟨4, ![32, 512, 512, 3]⟩

/-- Three index arrays of extents 32, 512, 512, 1 joined along the last axis, read at (b, h, w, k): the k-th array at
    (b, h, w, 0). -/
theorem concat3_apply {α : Type} (f0 f1 f2 : shCol.Idx → α)
    (hc : Shape.Concatenates [shCol, shCol, shCol] shCols 3) (b : Fin 32) (h v : Fin 512) :
    concatenate shCols 3 [⟨shCol, f0⟩, ⟨shCol, f1⟩, ⟨shCol, f2⟩] hc (ix4 b h v 0) = f0 (ix4 b h v 0)
    ∧ concatenate shCols 3 [⟨shCol, f0⟩, ⟨shCol, f1⟩, ⟨shCol, f2⟩] hc (ix4 b h v 1) = f1 (ix4 b h v 0)
    ∧ concatenate shCols 3 [⟨shCol, f0⟩, ⟨shCol, f1⟩, ⟨shCol, f2⟩] hc (ix4 b h v 2) = f2 (ix4 b h v 0) := by
  have hi : ∀ k : Fin 3, ∀ e : Fin 4, e.cast (rfl : (4 : Nat) = 4) ≠ (3 : Fin 4) →
      ((ix4 b h v (0 : Fin 1) : shCol.Idx) e).val = ((ix4 b h v k : shCols.Idx) (e.cast rfl)).val := by
    intro k e he
    match e, he with
    | ⟨0, _⟩, _ => rfl
    | ⟨1, _⟩, _ => rfl
    | ⟨2, _⟩, _ => rfl
    | ⟨3, _⟩, he => exact absurd rfl he
  refine ⟨?_, ?_, ?_⟩
  · exact concatenate_apply_piece (t := shCols) (3 : Fin 4) [⟨shCol, f0⟩, ⟨shCol, f1⟩, ⟨shCol, f2⟩] hc (ix4 b h v 0)
      0 (by simp) shCol f0 rfl rfl 0 rfl (ix4 b h v 0) (hi 0) rfl
  · exact concatenate_apply_piece (t := shCols) (3 : Fin 4) [⟨shCol, f0⟩, ⟨shCol, f1⟩, ⟨shCol, f2⟩] hc (ix4 b h v 1)
      1 (by simp) shCol f1 rfl rfl 1 rfl (ix4 b h v 0) (hi 1) rfl
  · exact concatenate_apply_piece (t := shCols) (3 : Fin 4) [⟨shCol, f0⟩, ⟨shCol, f1⟩, ⟨shCol, f2⟩] hc (ix4 b h v 2)
      2 (by simp) shCol f2 rfl rfl 2 rfl (ix4 b h v 0) (hi 2) rfl

end Cert.ReferenceIdeal.RefValue

end
-- ==== Proof.RefRead.lean ====
/-
  The reference read at one index. Its operations are read one at a time down to a pixel: the three colour channels of
  the image (a slice and a reshape each), the three coordinates, their cells, weights and integer indices (elementwise
  operations, read through by unfolding), then for each of the eight corners of the cell the table lookup (three index
  arrays, each made a column, joined and looked up: the table's entry at the pixel's three wrapped and clamped indices),
  its product with its three weights (each weight array repeated over the three output channels), the sum of the eight
  products from left to right, and the exchange of the batch and channel axes. The result is `Trilerp.refPix`.
-/
import proofs.«175942_j28200755265787_2_alg».proof.Proof.RefReadP
import proofs.«175942_j28200755265787_2_alg».proof.Proof.RefSpec
import proofs.«175942_j28200755265787_2_alg».proof.Proof.RefReadGather

noncomputable section

namespace Cert.ReferenceIdeal.RefValue

open Cert.ReferenceIdeal Cert.ReferenceIdeal.Gen Cert.ReferenceIdeal.ReadP Idealize.ShloMosaic Idealize.ShloMosaic.ValueIdx Trilerp

/-- The image and the table as the reference takes them, over the extended reals. -/
abbrev Img := (⟨S32x3x512x512, .f32⟩ : BufTy).Contents (Elt Ideal)
abbrev Lut := (⟨S3x33x33x33, .f32⟩ : BufTy).Contents (Elt Ideal)

/-! ## The layout operations read at an index -/

/-- A pixel array broadcast to a column of start components, read at (b, h, w, ·): the pixel's entry. -/
theorem bcol_apply {α : Type} (f : S32x512x512.Idx → α) (b : Fin 32) (h v : Fin 512) (k : Fin 1) :
    broadcastInDim S32x512x512x1 ![0, 1, 2] bcast_S32x512x512_S32x512x512x1_0_1_2 f (ix4 b h v k) = f (ix3 b h v) :=
  broadcastInDim_apply _ bcast_S32x512x512_S32x512x512x1_0_1_2 f (ix4 b h v k) (ix3 b h v) (fun a => match a with
    | ⟨0, _⟩ => by show b.val = if (32 : Nat) = 1 then 0 else b.val; rw [if_neg (by decide)]
    | ⟨1, _⟩ => by show h.val = if (512 : Nat) = 1 then 0 else h.val; rw [if_neg (by decide)]
    | ⟨2, _⟩ => by show v.val = if (512 : Nat) = 1 then 0 else v.val; rw [if_neg (by decide)])

/-- A pixel array broadcast over the three output channels, read at (c, b, h, w): the pixel's entry. -/
theorem bw_apply {α : Type} (f : S32x512x512.Idx → α) (c : Fin 3) (b : Fin 32) (h v : Fin 512) :
    broadcastInDim S3x32x512x512 ![0, 1, 2, 3] bcast_S1x32x512x512_S3x32x512x512_0_1_2_3
      (broadcastInDim S1x32x512x512 ![1, 2, 3] bcast_S32x512x512_S1x32x512x512_1_2_3 f) (ix4 c b h v) = f (ix3 b h v) := by
  rw [broadcastInDim_apply _ bcast_S1x32x512x512_S3x32x512x512_0_1_2_3 _ (ix4 c b h v) (ix4 (0 : Fin 1) b h v) (fun a => match a with
    | ⟨0, _⟩ => by show 0 = if (1 : Nat) = 1 then 0 else c.val; rw [if_pos rfl]
    | ⟨1, _⟩ => by show b.val = if (32 : Nat) = 1 then 0 else b.val; rw [if_neg (by decide)]
    | ⟨2, _⟩ => by show h.val = if (512 : Nat) = 1 then 0 else h.val; rw [if_neg (by decide)]
    | ⟨3, _⟩ => by show v.val = if (512 : Nat) = 1 then 0 else v.val; rw [if_neg (by decide)])]
  exact broadcastInDim_apply _ bcast_S32x512x512_S1x32x512x512_1_2_3 f (ix4 (0 : Fin 1) b h v) (ix3 b h v) (fun a => match a with
    | ⟨0, _⟩ => by show b.val = if (32 : Nat) = 1 then 0 else b.val; rw [if_neg (by decide)]
    | ⟨1, _⟩ => by show h.val = if (512 : Nat) = 1 then 0 else h.val; rw [if_neg (by decide)]
    | ⟨2, _⟩ => by show v.val = if (512 : Nat) = 1 then 0 else v.val; rw [if_neg (by decide)])

/-- The exchange of the channel and batch axes, read at (b, c, h, w): the operand at (c, b, h, w). -/
theorem tr_apply {α : Type} (f : S3x32x512x512.Idx → α) (b : Fin 32) (c : Fin 3) (h v : Fin 512) :
    transpose S32x3x512x512 [1, 0, 2, 3] f transposes_S3x32x512x512_S32x3x512x512_1_0_2_3 (ix4 b c h v) = f (ix4 c b h v) :=
  transpose_apply [1, 0, 2, 3] f transposes_S3x32x512x512_S32x3x512x512_1_0_2_3 (ix4 b c h v) (ix4 c b h v) (fun e => match e with
    | ⟨0, _⟩ => rfl
    | ⟨1, _⟩ => rfl
    | ⟨2, _⟩ => rfl
    | ⟨3, _⟩ => rfl)

/-- The table looked up at three pixel arrays of integer indices (for its axes 1, 2, 3), read at (c, b, h, w): the
    table's entry at channel c and at the pixel's three indices, each read signed and clamped into the axis. -/
theorem gather_cols {α : Type} (x : S3x33x33x33.Idx → α) (f0 f1 f2 : S32x512x512.Idx → BitVec 32)
    (c : Fin 3) (b : Fin 32) (h v : Fin 512) :
    Host.gather gather_S3x33x33x33_S32x512x512x3_S3x32x512x512_0_123_n_n_123_3_3111 x
      (concatenate S32x512x512x3 3
        [⟨S32x512x512x1, broadcastInDim S32x512x512x1 ![0, 1, 2] bcast_S32x512x512_S32x512x512x1_0_1_2 f0⟩,
         ⟨S32x512x512x1, broadcastInDim S32x512x512x1 ![0, 1, 2] bcast_S32x512x512_S32x512x512x1_0_1_2 f1⟩,
         ⟨S32x512x512x1, broadcastInDim S32x512x512x1 ![0, 1, 2] bcast_S32x512x512_S32x512x512x1_0_1_2 f2⟩]
        concatenates_S32x512x512x1_S32x512x512x1_S32x512x512x1_S32x512x512x3_d3) (ix4 c b h v)
      = x (ix4 c (clampI (f0 (ix3 b h v))) (clampI (f1 (ix3 b h v))) (clampI (f2 (ix3 b h v)))) := by
  have hg := gather_lut_apply gather_S3x33x33x33_S32x512x512x3_S3x32x512x512_0_123_n_n_123_3_3111_wf x
    (concatenate S32x512x512x3 3
        [⟨S32x512x512x1, broadcastInDim S32x512x512x1 ![0, 1, 2] bcast_S32x512x512_S32x512x512x1_0_1_2 f0⟩,
         ⟨S32x512x512x1, broadcastInDim S32x512x512x1 ![0, 1, 2] bcast_S32x512x512_S32x512x512x1_0_1_2 f1⟩,
         ⟨S32x512x512x1, broadcastInDim S32x512x512x1 ![0, 1, 2] bcast_S32x512x512_S32x512x512x1_0_1_2 f2⟩]
        concatenates_S32x512x512x1_S32x512x512x1_S32x512x512x1_S32x512x512x3_d3) c b h v
  obtain ⟨e0, e1, e2⟩ := concat3_apply
    (broadcastInDim S32x512x512x1 ![0, 1, 2] bcast_S32x512x512_S32x512x512x1_0_1_2 f0)
    (broadcastInDim S32x512x512x1 ![0, 1, 2] bcast_S32x512x512_S32x512x512x1_0_1_2 f1)
    (broadcastInDim S32x512x512x1 ![0, 1, 2] bcast_S32x512x512_S32x512x512x1_0_1_2 f2)
    concatenates_S32x512x512x1_S32x512x512x1_S32x512x512x1_S32x512x512x3_d3 b h v
  rw [e0, e1, e2, bcol_apply, bcol_apply, bcol_apply] at hg
  exact hg

/-! ## The pixel's coordinates, cells, weights and integer indices -/

/-- Channel 0 of the image as a pixel array. -/
theorem chan0 (img : Img) (i : S32x512x512.Idx) :
    val_main_v1 (F := Ideal) img i = img (ix4 (i 0) 0 (i 1) (i 2)) := by
  rw [val_main_v1_apply, val_main_v0_apply]
  refine congrArg img (funext fun a => Fin.ext ?_)
  have h0 : (i 0).val < 32 := (i 0).isLt
  have h1 : (i 1).val < 512 := (i 1).isLt
  have h2 : (i 2).val < 512 := (i 2).isLt
  match a with
  | ⟨0, _⟩ => show (((i 0).val * 512 + (i 1).val) * 512 + (i 2).val) / 262144 = (i 0).val; omega
  | ⟨1, _⟩ => rfl
  | ⟨2, _⟩ => show (((i 0).val * 512 + (i 1).val) * 512 + (i 2).val) / 512 % 512 = (i 1).val; omega
  | ⟨3, _⟩ => show (((i 0).val * 512 + (i 1).val) * 512 + (i 2).val) % 512 = (i 2).val; omega

/-- Channel 1 of the image as a pixel array. -/
theorem chan1 (img : Img) (i : S32x512x512.Idx) :
    val_main_v3 (F := Ideal) img i = img (ix4 (i 0) 1 (i 1) (i 2)) := by
  rw [val_main_v3_apply, val_main_v2_apply]
  refine congrArg img (funext fun a => Fin.ext ?_)
  have h0 : (i 0).val < 32 := (i 0).isLt
  have h1 : (i 1).val < 512 := (i 1).isLt
  have h2 : (i 2).val < 512 := (i 2).isLt
  match a with
  | ⟨0, _⟩ => show (((i 0).val * 512 + (i 1).val) * 512 + (i 2).val) / 262144 = (i 0).val; omega
  | ⟨1, _⟩ => rfl
  | ⟨2, _⟩ => show (((i 0).val * 512 + (i 1).val) * 512 + (i 2).val) / 512 % 512 = (i 1).val; omega
  | ⟨3, _⟩ => show (((i 0).val * 512 + (i 1).val) * 512 + (i 2).val) % 512 = (i 2).val; omega

/-- Channel 2 of the image as a pixel array. -/
theorem chan2 (img : Img) (i : S32x512x512.Idx) :
    val_main_v5 (F := Ideal) img i = img (ix4 (i 0) 2 (i 1) (i 2)) := by
  rw [val_main_v5_apply, val_main_v4_apply]
  refine congrArg img (funext fun a => Fin.ext ?_)
  have h0 : (i 0).val < 32 := (i 0).isLt
  have h1 : (i 1).val < 512 := (i 1).isLt
  have h2 : (i 2).val < 512 := (i 2).isLt
  match a with
  | ⟨0, _⟩ => show (((i 0).val * 512 + (i 1).val) * 512 + (i 2).val) / 262144 = (i 0).val; omega
  | ⟨1, _⟩ => rfl
  | ⟨2, _⟩ => show (((i 0).val * 512 + (i 1).val) * 512 + (i 2).val) / 512 % 512 = (i 1).val; omega
  | ⟨3, _⟩ => show (((i 0).val * 512 + (i 1).val) * 512 + (i 2).val) % 512 = (i 2).val; omega

/-- The X coordinate, its cell, weight and two integer indices at a pixel, from channel 0. -/
theorem coordX (img : Img) (b : Fin 32) (h v : Fin 512) : val_main_v8 (F := Ideal) img (ix3 b h v) = coordE (img (ix4 b 0 h v)) :=
  congrArg coordE (chan0 img (ix3 b h v))
theorem cellX (img : Img) (b : Fin 32) (h v : Fin 512) : val_main_v17 (F := Ideal) img (ix3 b h v) = cellE (coordE (img (ix4 b 0 h v))) :=
  congrArg cellE (coordX img b h v)
theorem weightX (img : Img) (b : Fin 32) (h v : Fin 512) :
    val_main_v24 (F := Ideal) img (ix3 b h v) = coordE (img (ix4 b 0 h v)) - cellE (coordE (img (ix4 b 0 h v))) := by
  show val_main_v8 (F := Ideal) img (ix3 b h v) - val_main_v17 (F := Ideal) img (ix3 b h v) = _
  rw [coordX, cellX]
theorem loX (img : Img) (b : Fin 32) (h v : Fin 512) :
    val_main_v27 (F := Ideal) img (ix3 b h v) = Ideal.fptosi 32 (cellE (coordE (img (ix4 b 0 h v)))) :=
  congrArg (Ideal.fptosi 32) (cellX img b h v)
theorem hiX (img : Img) (b : Fin 32) (h v : Fin 512) :
    val_main_v29 (F := Ideal) img (ix3 b h v) = IntOp.addi (Ideal.fptosi 32 (cellE (coordE (img (ix4 b 0 h v))))) 1#32 :=
  congrArg (fun t => IntOp.addi t 1#32) (loX img b h v)

/-- The Y coordinate, its cell, weight and two integer indices at a pixel, from channel 1. -/
theorem coordY (img : Img) (b : Fin 32) (h v : Fin 512) : val_main_v11 (F := Ideal) img (ix3 b h v) = coordE (img (ix4 b 1 h v)) :=
  congrArg coordE (chan1 img (ix3 b h v))
theorem cellY (img : Img) (b : Fin 32) (h v : Fin 512) : val_main_v20 (F := Ideal) img (ix3 b h v) = cellE (coordE (img (ix4 b 1 h v))) :=
  congrArg cellE (coordY img b h v)
theorem weightY (img : Img) (b : Fin 32) (h v : Fin 512) :
    val_main_v25 (F := Ideal) img (ix3 b h v) = coordE (img (ix4 b 1 h v)) - cellE (coordE (img (ix4 b 1 h v))) := by
  show val_main_v11 (F := Ideal) img (ix3 b h v) - val_main_v20 (F := Ideal) img (ix3 b h v) = _
  rw [coordY, cellY]
theorem loY (img : Img) (b : Fin 32) (h v : Fin 512) :
    val_main_v30 (F := Ideal) img (ix3 b h v) = Ideal.fptosi 32 (cellE (coordE (img (ix4 b 1 h v)))) :=
  congrArg (Ideal.fptosi 32) (cellY img b h v)
theorem hiY (img : Img) (b : Fin 32) (h v : Fin 512) :
    val_main_v32 (F := Ideal) img (ix3 b h v) = IntOp.addi (Ideal.fptosi 32 (cellE (coordE (img (ix4 b 1 h v))))) 1#32 :=
  congrArg (fun t => IntOp.addi t 1#32) (loY img b h v)

/-- The Z coordinate, its cell, weight and two integer indices at a pixel, from channel 2. -/
theorem coordZ (img : Img) (b : Fin 32) (h v : Fin 512) : val_main_v14 (F := Ideal) img (ix3 b h v) = coordE (img (ix4 b 2 h v)) :=
  congrArg coordE (chan2 img (ix3 b h v))
theorem cellZ (img : Img) (b : Fin 32) (h v : Fin 512) : val_main_v23 (F := Ideal) img (ix3 b h v) = cellE (coordE (img (ix4 b 2 h v))) :=
  congrArg cellE (coordZ img b h v)
theorem weightZ (img : Img) (b : Fin 32) (h v : Fin 512) :
    val_main_v26 (F := Ideal) img (ix3 b h v) = coordE (img (ix4 b 2 h v)) - cellE (coordE (img (ix4 b 2 h v))) := by
  show val_main_v14 (F := Ideal) img (ix3 b h v) - val_main_v23 (F := Ideal) img (ix3 b h v) = _
  rw [coordZ, cellZ]
theorem loZ (img : Img) (b : Fin 32) (h v : Fin 512) :
    val_main_v33 (F := Ideal) img (ix3 b h v) = Ideal.fptosi 32 (cellE (coordE (img (ix4 b 2 h v)))) :=
  congrArg (Ideal.fptosi 32) (cellZ img b h v)
theorem hiZ (img : Img) (b : Fin 32) (h v : Fin 512) :
    val_main_v35 (F := Ideal) img (ix3 b h v) = IntOp.addi (Ideal.fptosi 32 (cellE (coordE (img (ix4 b 2 h v))))) 1#32 :=
  congrArg (fun t => IntOp.addi t 1#32) (loZ img b h v)

/-! ## The eight corners and their products -/

/-- Corner 1 of the cell: the table at the pixel's (z, y, x) indices low, low, low. -/
theorem corner_55 (lut : Lut) (img : Img) (c : Fin 3) (b : Fin 32) (h v : Fin 512) :
    val_main_v55 (F := Ideal) lut img (ix4 c b h v)
      = corner (fun z y x => lut (ix4 c z y x)) (val_main_v33 (F := Ideal) img (ix3 b h v))
          (val_main_v30 (F := Ideal) img (ix3 b h v)) (val_main_v27 (F := Ideal) img (ix3 b h v)) :=
  gather_cols lut (val_main_v40 (F := Ideal) img) (val_main_v45 (F := Ideal) img) (val_main_v50 (F := Ideal) img) c b h v

/-- Corner 1 times its three weights. -/
theorem term_70 (lut : Lut) (img : Img) (c : Fin 3) (b : Fin 32) (h v : Fin 512) :
    val_main_v70 (F := Ideal) lut img (ix4 c b h v)
      = corner (fun z y x => lut (ix4 c z y x)) (val_main_v33 (F := Ideal) img (ix3 b h v))
          (val_main_v30 (F := Ideal) img (ix3 b h v)) (val_main_v27 (F := Ideal) img (ix3 b h v))
        * (c1 - val_main_v26 (F := Ideal) img (ix3 b h v)) * (c1 - val_main_v25 (F := Ideal) img (ix3 b h v))
        * (c1 - val_main_v24 (F := Ideal) img (ix3 b h v)) := by
  show val_main_v55 (F := Ideal) lut img (ix4 c b h v) * val_main_v59 (F := Ideal) img (ix4 c b h v)
    * val_main_v64 (F := Ideal) img (ix4 c b h v) * val_main_v69 (F := Ideal) img (ix4 c b h v) = _
  rw [corner_55,
    show val_main_v59 (F := Ideal) img (ix4 c b h v) = (c1 - val_main_v26 (F := Ideal) img (ix3 b h v)) from
      bw_apply (val_main_v57 (F := Ideal) img) c b h v,
    show val_main_v64 (F := Ideal) img (ix4 c b h v) = (c1 - val_main_v25 (F := Ideal) img (ix3 b h v)) from
      bw_apply (val_main_v62 (F := Ideal) img) c b h v,
    show val_main_v69 (F := Ideal) img (ix4 c b h v) = (c1 - val_main_v24 (F := Ideal) img (ix3 b h v)) from
      bw_apply (val_main_v67 (F := Ideal) img) c b h v]

/-- Corner 2 of the cell: the table at the pixel's (z, y, x) indices low, low, high. -/
theorem corner_90 (lut : Lut) (img : Img) (c : Fin 3) (b : Fin 32) (h v : Fin 512) :
    val_main_v90 (F := Ideal) lut img (ix4 c b h v)
      = corner (fun z y x => lut (ix4 c z y x)) (val_main_v33 (F := Ideal) img (ix3 b h v))
          (val_main_v30 (F := Ideal) img (ix3 b h v)) (val_main_v29 (F := Ideal) img (ix3 b h v)) :=
  gather_cols lut (val_main_v75 (F := Ideal) img) (val_main_v80 (F := Ideal) img) (val_main_v85 (F := Ideal) img) c b h v

/-- Corner 2 times its three weights. -/
theorem term_103 (lut : Lut) (img : Img) (c : Fin 3) (b : Fin 32) (h v : Fin 512) :
    val_main_v103 (F := Ideal) lut img (ix4 c b h v)
      = corner (fun z y x => lut (ix4 c z y x)) (val_main_v33 (F := Ideal) img (ix3 b h v))
          (val_main_v30 (F := Ideal) img (ix3 b h v)) (val_main_v29 (F := Ideal) img (ix3 b h v))
        * (c1 - val_main_v26 (F := Ideal) img (ix3 b h v)) * (c1 - val_main_v25 (F := Ideal) img (ix3 b h v))
        * val_main_v24 (F := Ideal) img (ix3 b h v) := by
  show val_main_v90 (F := Ideal) lut img (ix4 c b h v) * val_main_v94 (F := Ideal) img (ix4 c b h v)
    * val_main_v99 (F := Ideal) img (ix4 c b h v) * val_main_v102 (F := Ideal) img (ix4 c b h v) = _
  rw [corner_90,
    show val_main_v94 (F := Ideal) img (ix4 c b h v) = (c1 - val_main_v26 (F := Ideal) img (ix3 b h v)) from
      bw_apply (val_main_v92 (F := Ideal) img) c b h v,
    show val_main_v99 (F := Ideal) img (ix4 c b h v) = (c1 - val_main_v25 (F := Ideal) img (ix3 b h v)) from
      bw_apply (val_main_v97 (F := Ideal) img) c b h v,
    show val_main_v102 (F := Ideal) img (ix4 c b h v) = val_main_v24 (F := Ideal) img (ix3 b h v) from
      bw_apply (val_main_v24 (F := Ideal) img) c b h v]

/-- Corner 3 of the cell: the table at the pixel's (z, y, x) indices low, high, low. -/
theorem corner_124 (lut : Lut) (img : Img) (c : Fin 3) (b : Fin 32) (h v : Fin 512) :
    val_main_v124 (F := Ideal) lut img (ix4 c b h v)
      = corner (fun z y x => lut (ix4 c z y x)) (val_main_v33 (F := Ideal) img (ix3 b h v))
          (val_main_v32 (F := Ideal) img (ix3 b h v)) (val_main_v27 (F := Ideal) img (ix3 b h v)) :=
  gather_cols lut (val_main_v109 (F := Ideal) img) (val_main_v114 (F := Ideal) img) (val_main_v119 (F := Ideal) img) c b h v

/-- Corner 3 times its three weights. -/
theorem term_137 (lut : Lut) (img : Img) (c : Fin 3) (b : Fin 32) (h v : Fin 512) :
    val_main_v137 (F := Ideal) lut img (ix4 c b h v)
      = corner (fun z y x => lut (ix4 c z y x)) (val_main_v33 (F := Ideal) img (ix3 b h v))
          (val_main_v32 (F := Ideal) img (ix3 b h v)) (val_main_v27 (F := Ideal) img (ix3 b h v))
        * (c1 - val_main_v26 (F := Ideal) img (ix3 b h v)) * val_main_v25 (F := Ideal) img (ix3 b h v)
        * (c1 - val_main_v24 (F := Ideal) img (ix3 b h v)) := by
  show val_main_v124 (F := Ideal) lut img (ix4 c b h v) * val_main_v128 (F := Ideal) img (ix4 c b h v)
    * val_main_v131 (F := Ideal) img (ix4 c b h v) * val_main_v136 (F := Ideal) img (ix4 c b h v) = _
  rw [corner_124,
    show val_main_v128 (F := Ideal) img (ix4 c b h v) = (c1 - val_main_v26 (F := Ideal) img (ix3 b h v)) from
      bw_apply (val_main_v126 (F := Ideal) img) c b h v,
    show val_main_v131 (F := Ideal) img (ix4 c b h v) = val_main_v25 (F := Ideal) img (ix3 b h v) from
      bw_apply (val_main_v25 (F := Ideal) img) c b h v,
    show val_main_v136 (F := Ideal) img (ix4 c b h v) = (c1 - val_main_v24 (F := Ideal) img (ix3 b h v)) from
      bw_apply (val_main_v134 (F := Ideal) img) c b h v]

/-- Corner 4 of the cell: the table at the pixel's (z, y, x) indices low, high, high. -/
theorem corner_158 (lut : Lut) (img : Img) (c : Fin 3) (b : Fin 32) (h v : Fin 512) :
    val_main_v158 (F := Ideal) lut img (ix4 c b h v)
      = corner (fun z y x => lut (ix4 c z y x)) (val_main_v33 (F := Ideal) img (ix3 b h v))
          (val_main_v32 (F := Ideal) img (ix3 b h v)) (val_main_v29 (F := Ideal) img (ix3 b h v)) :=
  gather_cols lut (val_main_v143 (F := Ideal) img) (val_main_v148 (F := Ideal) img) (val_main_v153 (F := Ideal) img) c b h v

/-- Corner 4 times its three weights. -/
theorem term_169 (lut : Lut) (img : Img) (c : Fin 3) (b : Fin 32) (h v : Fin 512) :
    val_main_v169 (F := Ideal) lut img (ix4 c b h v)
      = corner (fun z y x => lut (ix4 c z y x)) (val_main_v33 (F := Ideal) img (ix3 b h v))
          (val_main_v32 (F := Ideal) img (ix3 b h v)) (val_main_v29 (F := Ideal) img (ix3 b h v))
        * (c1 - val_main_v26 (F := Ideal) img (ix3 b h v)) * val_main_v25 (F := Ideal) img (ix3 b h v)
        * val_main_v24 (F := Ideal) img (ix3 b h v) := by
  show val_main_v158 (F := Ideal) lut img (ix4 c b h v) * val_main_v162 (F := Ideal) img (ix4 c b h v)
    * val_main_v165 (F := Ideal) img (ix4 c b h v) * val_main_v168 (F := Ideal) img (ix4 c b h v) = _
  rw [corner_158,
    show val_main_v162 (F := Ideal) img (ix4 c b h v) = (c1 - val_main_v26 (F := Ideal) img (ix3 b h v)) from
      bw_apply (val_main_v160 (F := Ideal) img) c b h v,
    show val_main_v165 (F := Ideal) img (ix4 c b h v) = val_main_v25 (F := Ideal) img (ix3 b h v) from
      bw_apply (val_main_v25 (F := Ideal) img) c b h v,
    show val_main_v168 (F := Ideal) img (ix4 c b h v) = val_main_v24 (F := Ideal) img (ix3 b h v) from
      bw_apply (val_main_v24 (F := Ideal) img) c b h v]

/-- Corner 5 of the cell: the table at the pixel's (z, y, x) indices high, low, low. -/
theorem corner_190 (lut : Lut) (img : Img) (c : Fin 3) (b : Fin 32) (h v : Fin 512) :
    val_main_v190 (F := Ideal) lut img (ix4 c b h v)
      = corner (fun z y x => lut (ix4 c z y x)) (val_main_v35 (F := Ideal) img (ix3 b h v))
          (val_main_v30 (F := Ideal) img (ix3 b h v)) (val_main_v27 (F := Ideal) img (ix3 b h v)) :=
  gather_cols lut (val_main_v175 (F := Ideal) img) (val_main_v180 (F := Ideal) img) (val_main_v185 (F := Ideal) img) c b h v

/-- Corner 5 times its three weights. -/
theorem term_203 (lut : Lut) (img : Img) (c : Fin 3) (b : Fin 32) (h v : Fin 512) :
    val_main_v203 (F := Ideal) lut img (ix4 c b h v)
      = corner (fun z y x => lut (ix4 c z y x)) (val_main_v35 (F := Ideal) img (ix3 b h v))
          (val_main_v30 (F := Ideal) img (ix3 b h v)) (val_main_v27 (F := Ideal) img (ix3 b h v))
        * val_main_v26 (F := Ideal) img (ix3 b h v) * (c1 - val_main_v25 (F := Ideal) img (ix3 b h v))
        * (c1 - val_main_v24 (F := Ideal) img (ix3 b h v)) := by
  show val_main_v190 (F := Ideal) lut img (ix4 c b h v) * val_main_v192 (F := Ideal) img (ix4 c b h v)
    * val_main_v197 (F := Ideal) img (ix4 c b h v) * val_main_v202 (F := Ideal) img (ix4 c b h v) = _
  rw [corner_190,
    show val_main_v192 (F := Ideal) img (ix4 c b h v) = val_main_v26 (F := Ideal) img (ix3 b h v) from
      bw_apply (val_main_v26 (F := Ideal) img) c b h v,
    show val_main_v197 (F := Ideal) img (ix4 c b h v) = (c1 - val_main_v25 (F := Ideal) img (ix3 b h v)) from
      bw_apply (val_main_v195 (F := Ideal) img) c b h v,
    show val_main_v202 (F := Ideal) img (ix4 c b h v) = (c1 - val_main_v24 (F := Ideal) img (ix3 b h v)) from
      bw_apply (val_main_v200 (F := Ideal) img) c b h v]

/-- Corner 6 of the cell: the table at the pixel's (z, y, x) indices high, low, high. -/
theorem corner_224 (lut : Lut) (img : Img) (c : Fin 3) (b : Fin 32) (h v : Fin 512) :
    val_main_v224 (F := Ideal) lut img (ix4 c b h v)
      = corner (fun z y x => lut (ix4 c z y x)) (val_main_v35 (F := Ideal) img (ix3 b h v))
          (val_main_v30 (F := Ideal) img (ix3 b h v)) (val_main_v29 (F := Ideal) img (ix3 b h v)) :=
  gather_cols lut (val_main_v209 (F := Ideal) img) (val_main_v214 (F := Ideal) img) (val_main_v219 (F := Ideal) img) c b h v

/-- Corner 6 times its three weights. -/
theorem term_235 (lut : Lut) (img : Img) (c : Fin 3) (b : Fin 32) (h v : Fin 512) :
    val_main_v235 (F := Ideal) lut img (ix4 c b h v)
      = corner (fun z y x => lut (ix4 c z y x)) (val_main_v35 (F := Ideal) img (ix3 b h v))
          (val_main_v30 (F := Ideal) img (ix3 b h v)) (val_main_v29 (F := Ideal) img (ix3 b h v))
        * val_main_v26 (F := Ideal) img (ix3 b h v) * (c1 - val_main_v25 (F := Ideal) img (ix3 b h v))
        * val_main_v24 (F := Ideal) img (ix3 b h v) := by
  show val_main_v224 (F := Ideal) lut img (ix4 c b h v) * val_main_v226 (F := Ideal) img (ix4 c b h v)
    * val_main_v231 (F := Ideal) img (ix4 c b h v) * val_main_v234 (F := Ideal) img (ix4 c b h v) = _
  rw [corner_224,
    show val_main_v226 (F := Ideal) img (ix4 c b h v) = val_main_v26 (F := Ideal) img (ix3 b h v) from
      bw_apply (val_main_v26 (F := Ideal) img) c b h v,
    show val_main_v231 (F := Ideal) img (ix4 c b h v) = (c1 - val_main_v25 (F := Ideal) img (ix3 b h v)) from
      bw_apply (val_main_v229 (F := Ideal) img) c b h v,
    show val_main_v234 (F := Ideal) img (ix4 c b h v) = val_main_v24 (F := Ideal) img (ix3 b h v) from
      bw_apply (val_main_v24 (F := Ideal) img) c b h v]

/-- Corner 7 of the cell: the table at the pixel's (z, y, x) indices high, high, low. -/
theorem corner_256 (lut : Lut) (img : Img) (c : Fin 3) (b : Fin 32) (h v : Fin 512) :
    val_main_v256 (F := Ideal) lut img (ix4 c b h v)
      = corner (fun z y x => lut (ix4 c z y x)) (val_main_v35 (F := Ideal) img (ix3 b h v))
          (val_main_v32 (F := Ideal) img (ix3 b h v)) (val_main_v27 (F := Ideal) img (ix3 b h v)) :=
  gather_cols lut (val_main_v241 (F := Ideal) img) (val_main_v246 (F := Ideal) img) (val_main_v251 (F := Ideal) img) c b h v

/-- Corner 7 times its three weights. -/
theorem term_267 (lut : Lut) (img : Img) (c : Fin 3) (b : Fin 32) (h v : Fin 512) :
    val_main_v267 (F := Ideal) lut img (ix4 c b h v)
      = corner (fun z y x => lut (ix4 c z y x)) (val_main_v35 (F := Ideal) img (ix3 b h v))
          (val_main_v32 (F := Ideal) img (ix3 b h v)) (val_main_v27 (F := Ideal) img (ix3 b h v))
        * val_main_v26 (F := Ideal) img (ix3 b h v) * val_main_v25 (F := Ideal) img (ix3 b h v)
        * (c1 - val_main_v24 (F := Ideal) img (ix3 b h v)) := by
  show val_main_v256 (F := Ideal) lut img (ix4 c b h v) * val_main_v258 (F := Ideal) img (ix4 c b h v)
    * val_main_v261 (F := Ideal) img (ix4 c b h v) * val_main_v266 (F := Ideal) img (ix4 c b h v) = _
  rw [corner_256,
    show val_main_v258 (F := Ideal) img (ix4 c b h v) = val_main_v26 (F := Ideal) img (ix3 b h v) from
      bw_apply (val_main_v26 (F := Ideal) img) c b h v,
    show val_main_v261 (F := Ideal) img (ix4 c b h v) = val_main_v25 (F := Ideal) img (ix3 b h v) from
      bw_apply (val_main_v25 (F := Ideal) img) c b h v,
    show val_main_v266 (F := Ideal) img (ix4 c b h v) = (c1 - val_main_v24 (F := Ideal) img (ix3 b h v)) from
      bw_apply (val_main_v264 (F := Ideal) img) c b h v]

/-- Corner 8 of the cell: the table at the pixel's (z, y, x) indices high, high, high. -/
theorem corner_288 (lut : Lut) (img : Img) (c : Fin 3) (b : Fin 32) (h v : Fin 512) :
    val_main_v288 (F := Ideal) lut img (ix4 c b h v)
      = corner (fun z y x => lut (ix4 c z y x)) (val_main_v35 (F := Ideal) img (ix3 b h v))
          (val_main_v32 (F := Ideal) img (ix3 b h v)) (val_main_v29 (F := Ideal) img (ix3 b h v)) :=
  gather_cols lut (val_main_v273 (F := Ideal) img) (val_main_v278 (F := Ideal) img) (val_main_v283 (F := Ideal) img) c b h v

/-- Corner 8 times its three weights. -/
theorem term_297 (lut : Lut) (img : Img) (c : Fin 3) (b : Fin 32) (h v : Fin 512) :
    val_main_v297 (F := Ideal) lut img (ix4 c b h v)
      = corner (fun z y x => lut (ix4 c z y x)) (val_main_v35 (F := Ideal) img (ix3 b h v))
          (val_main_v32 (F := Ideal) img (ix3 b h v)) (val_main_v29 (F := Ideal) img (ix3 b h v))
        * val_main_v26 (F := Ideal) img (ix3 b h v) * val_main_v25 (F := Ideal) img (ix3 b h v)
        * val_main_v24 (F := Ideal) img (ix3 b h v) := by
  show val_main_v288 (F := Ideal) lut img (ix4 c b h v) * val_main_v290 (F := Ideal) img (ix4 c b h v)
    * val_main_v293 (F := Ideal) img (ix4 c b h v) * val_main_v296 (F := Ideal) img (ix4 c b h v) = _
  rw [corner_288,
    show val_main_v290 (F := Ideal) img (ix4 c b h v) = val_main_v26 (F := Ideal) img (ix3 b h v) from
      bw_apply (val_main_v26 (F := Ideal) img) c b h v,
    show val_main_v293 (F := Ideal) img (ix4 c b h v) = val_main_v25 (F := Ideal) img (ix3 b h v) from
      bw_apply (val_main_v25 (F := Ideal) img) c b h v,
    show val_main_v296 (F := Ideal) img (ix4 c b h v) = val_main_v24 (F := Ideal) img (ix3 b h v) from
      bw_apply (val_main_v24 (F := Ideal) img) c b h v]

/-! ## The sum and the exchange of axes -/

/-- THE REFERENCE READ AT ONE INDEX: output element (b, c, h, w) is the trilinear blend, written with the reference's own
    operations, of channel c's table at the pixel's three colour values. -/
theorem ref_apply (lut : (⟨S3x33x33x33, .f32⟩ : BufTy).Contents (Elt Ideal))
    (img : (⟨S32x3x512x512, .f32⟩ : BufTy).Contents (Elt Ideal)) (b : Fin 32) (c : Fin 3) (h w : Fin 512) :
    val_main_v299 (F := Ideal) lut img (ix4 b c h w)
      = refPix (fun z y x => lut (ix4 c z y x)) (img (ix4 b 0 h w)) (img (ix4 b 1 h w)) (img (ix4 b 2 h w)) := by
  show transpose S32x3x512x512 [1, 0, 2, 3] (val_main_v298 (F := Ideal) lut img)
    transposes_S3x32x512x512_S32x3x512x512_1_0_2_3 (ix4 b c h w) = _
  rw [tr_apply]
  show val_main_v70 (F := Ideal) lut img (ix4 c b h w)
    + val_main_v103 (F := Ideal) lut img (ix4 c b h w)
    + val_main_v137 (F := Ideal) lut img (ix4 c b h w)
    + val_main_v169 (F := Ideal) lut img (ix4 c b h w)
    + val_main_v203 (F := Ideal) lut img (ix4 c b h w)
    + val_main_v235 (F := Ideal) lut img (ix4 c b h w)
    + val_main_v267 (F := Ideal) lut img (ix4 c b h w)
    + val_main_v297 (F := Ideal) lut img (ix4 c b h w) = _
  rw [term_70, term_103, term_137, term_169, term_203, term_235, term_267, term_297]
  rw [weightX, weightY, weightZ, loX, loY, loZ, hiX, hiY, hiZ]
  rfl

end Cert.ReferenceIdeal.RefValue

end
-- ==== Proof.Tent.lean ====
/-
  The one-dimensional fact behind trilinear interpolation, over the reals. On the grid points 0, 1, …, 32 the tent
  function k ↦ max 0 (1 - |k - x|) of a real x in [0, 32] vanishes except at the two grid points bracketing x — the cell
  ⌊x⌋ clipped into [0, 31] and its successor — where it takes the interpolation weights 1 - (x - cell) and x - cell.
  Summing a table against three tents, axis by axis, is therefore the blend of the eight corners of the cell.
-/
import Mathlib.Algebra.Order.Floor.Ring
import Mathlib.Algebra.BigOperators.Intervals
import Mathlib.Algebra.Order.Archimedean.Real.Basic
import Mathlib.Tactic

open scoped BigOperators

namespace Trilerp

/-- The tent centred at the grid point `k`. -/
noncomputable def tent (k : ℕ) (x : ℝ) : ℝ := max 0 (1 - |(k : ℝ) - x|)

/-- The lower grid point of the cell containing `x`: the floor of `x` clipped into [0, 31]. -/
noncomputable def cell (x : ℝ) : ℕ := (min 31 (max 0 ⌊x⌋)).toNat

/-- As an integer the cell is the clipped floor. -/
theorem cell_int (x : ℝ) : ((cell x : ℕ) : ℤ) = min 31 (max 0 ⌊x⌋) := by
  unfold cell
  exact Int.toNat_of_nonneg (le_min (by norm_num) (le_max_left _ _))

theorem cell_le (x : ℝ) : cell x ≤ 31 := by
  have h := cell_int x
  have h31 : min 31 (max 0 ⌊x⌋) ≤ 31 := min_le_left _ _
  omega

/-- As a real number the cell is the clipped floor. -/
theorem cell_cast (x : ℝ) : ((cell x : ℕ) : ℝ) = min 31 (max 0 ((⌊x⌋ : ℤ) : ℝ)) := by
  have h := congrArg (Int.cast : ℤ → ℝ) (cell_int x)
  push_cast at h
  exact h

/-- For `x` in [0, 32] the cell brackets `x`: cell ≤ x ≤ cell + 1. Below 32 the cell is the floor itself; at
    x = 32 the floor is 32, the cell is 31, and x sits on the cell's upper end. -/
theorem cell_bracket (x : ℝ) (h0 : 0 ≤ x) (h32 : x ≤ 32) :
    ((cell x : ℕ) : ℝ) ≤ x ∧ x ≤ ((cell x : ℕ) : ℝ) + 1 := by
  have hc := cell_int x
  have hf0 : 0 ≤ ⌊x⌋ := Int.floor_nonneg.mpr h0
  have hfl : ((⌊x⌋ : ℤ) : ℝ) ≤ x := Int.floor_le x
  have hlt : x < ((⌊x⌋ : ℤ) : ℝ) + 1 := Int.lt_floor_add_one x
  have hf32 : ⌊x⌋ ≤ 32 := by
    have h : ((⌊x⌋ : ℤ) : ℝ) ≤ ((32 : ℤ) : ℝ) := by push_cast; linarith
    exact Int.cast_le.mp h
  rcases le_or_gt ⌊x⌋ 31 with h | h
  · have hce : ((cell x : ℕ) : ℤ) = ⌊x⌋ := by
      rw [hc, max_eq_right hf0, min_eq_right h]
    have hcr : ((cell x : ℕ) : ℝ) = ((⌊x⌋ : ℤ) : ℝ) := by
      have h' := congrArg (Int.cast : ℤ → ℝ) hce
      push_cast at h'
      exact h'
    constructor <;> linarith
  · have hfe : ⌊x⌋ = 32 := by omega
    have hce : ((cell x : ℕ) : ℤ) = 31 := by
      rw [hc, hfe]; norm_num
    have hcr : ((cell x : ℕ) : ℝ) = 31 := by
      have h' := congrArg (Int.cast : ℤ → ℝ) hce
      push_cast at h'
      exact h'
    have hx : (32 : ℝ) ≤ x := by
      rw [hfe] at hfl
      push_cast at hfl
      exact hfl
    constructor <;> linarith

/-- The tent vanishes at a grid point at distance at least one to the left of `x`. -/
theorem tent_zero_left (k : ℕ) (x : ℝ) (h : (k : ℝ) + 1 ≤ x) : tent k x = 0 := by
  unfold tent
  have habs : |(k : ℝ) - x| = x - k := by
    rw [abs_of_nonpos (by linarith)]; ring
  rw [habs]
  exact max_eq_left (by linarith)

/-- The tent vanishes at a grid point at distance at least one to the right of `x`. -/
theorem tent_zero_right (k : ℕ) (x : ℝ) (h : x + 1 ≤ (k : ℝ)) : tent k x = 0 := by
  unfold tent
  have habs : |(k : ℝ) - x| = k - x := abs_of_nonneg (by linarith)
  rw [habs]
  exact max_eq_left (by linarith)

/-- At the grid point just below `x` the tent is the lower interpolation weight. -/
theorem tent_lower (k : ℕ) (x : ℝ) (h1 : (k : ℝ) ≤ x) (h2 : x ≤ (k : ℝ) + 1) :
    tent k x = 1 - (x - k) := by
  unfold tent
  have habs : |(k : ℝ) - x| = x - k := by
    rw [abs_of_nonpos (by linarith)]; ring
  rw [habs]
  exact max_eq_right (by linarith)

/-- At the grid point just above `x` the tent is the upper interpolation weight. -/
theorem tent_upper (k : ℕ) (x : ℝ) (h1 : (k : ℝ) ≤ x) (h2 : x ≤ (k : ℝ) + 1) :
    tent (k + 1) x = x - k := by
  unfold tent
  have habs : |((k + 1 : ℕ) : ℝ) - x| = k + 1 - x := by
    push_cast
    exact abs_of_nonneg (by linarith)
  rw [habs]
  rw [max_eq_right (by linarith)]
  ring

/-- A sum against the tent keeps two terms. -/
theorem tent_sum (f : ℕ → ℝ) (x : ℝ) (h0 : 0 ≤ x) (h32 : x ≤ 32) :
    ∑ k ∈ Finset.range 33, f k * tent k x
      = f (cell x) * (1 - (x - cell x)) + f (cell x + 1) * (x - cell x) := by
  obtain ⟨hlo, hhi⟩ := cell_bracket x h0 h32
  have hc31 := cell_le x
  rw [Finset.sum_eq_add_of_mem (cell x) (cell x + 1)
        (Finset.mem_range.mpr (by omega)) (Finset.mem_range.mpr (by omega)) (by omega)]
  · rw [tent_lower (cell x) x hlo hhi, tent_upper (cell x) x hlo hhi]
  · intro k _ hk
    obtain ⟨hk1, hk2⟩ := hk
    rcases Nat.lt_or_gt_of_ne hk1 with hlt | hgt
    · -- k + 1 ≤ cell ≤ x
      have h : (k : ℝ) + 1 ≤ (cell x : ℝ) := by exact_mod_cast hlt
      rw [tent_zero_left k x (by linarith), mul_zero]
    · -- x ≤ cell + 1 and cell + 2 ≤ k
      have hge : cell x + 2 ≤ k := by omega
      have h : (cell x : ℝ) + 2 ≤ (k : ℝ) := by exact_mod_cast hge
      rw [tent_zero_right k x (by linarith), mul_zero]

/-- A sum over k < m·n of a function of the quotient and remainder of k by n is the double sum over the
    quotient y < m and the remainder x < n (k = n·y + x). -/
theorem sum_range_mul_divmod (g : ℕ → ℕ → ℝ) (n : ℕ) (hn : 0 < n) (m : ℕ) :
    ∑ k ∈ Finset.range (m * n), g (k / n) (k % n)
      = ∑ y ∈ Finset.range m, ∑ x ∈ Finset.range n, g y x := by
  induction m with
  | zero => simp
  | succ m ih =>
    rw [Nat.succ_mul, Finset.sum_range_add, ih, Finset.sum_range_succ]
    congr 1
    apply Finset.sum_congr rfl
    intro x hx
    have hx' : x < n := Finset.mem_range.mp hx
    have hd : (m * n + x) / n = m := by
      rw [Nat.mul_comm, Nat.mul_add_div hn, Nat.div_eq_of_lt hx', Nat.add_zero]
    have hm : (m * n + x) % n = x := by
      rw [Nat.mul_comm, Nat.mul_add_mod, Nat.mod_eq_of_lt hx']
    rw [hd, hm]

/-- Two tents contracted jointly over k = 33·y + x: the blend of the four corners of the cell. -/
theorem bilerp (M : ℕ → ℕ → ℝ) (X Y : ℝ) (hX0 : 0 ≤ X) (hX : X ≤ 32) (hY0 : 0 ≤ Y) (hY : Y ≤ 32) :
    ∑ k ∈ Finset.range 1089, M (k / 33) (k % 33) * (tent (k / 33) Y * tent (k % 33) X)
      = (M (cell Y) (cell X) * (1 - (X - cell X)) + M (cell Y) (cell X + 1) * (X - cell X)) * (1 - (Y - cell Y))
        + (M (cell Y + 1) (cell X) * (1 - (X - cell X)) + M (cell Y + 1) (cell X + 1) * (X - cell X))
            * (Y - cell Y) := by
  have hsplit := sum_range_mul_divmod (fun y x => M y x * (tent y Y * tent x X)) 33 (by norm_num) 33
  have h1089 : (33 * 33 : ℕ) = 1089 := by norm_num
  rw [h1089] at hsplit
  rw [hsplit]
  have hrow : ∀ y ∈ Finset.range 33,
      ∑ x ∈ Finset.range 33, M y x * (tent y Y * tent x X)
        = (M y (cell X) * (1 - (X - cell X)) + M y (cell X + 1) * (X - cell X)) * tent y Y := by
    intro y _
    rw [← tent_sum (M y) X hX0 hX, Finset.sum_mul]
    apply Finset.sum_congr rfl
    intro x _
    ring
  rw [Finset.sum_congr rfl hrow]
  exact tent_sum (fun y => M y (cell X) * (1 - (X - cell X)) + M y (cell X + 1) * (X - cell X)) Y hY0 hY

/-- Three tents, the second and third axes contracted jointly over k = 33·y + x and the first afterwards: the
    blend of the eight corners of the cell, in the order z, y, x of the table's axes. -/
theorem trilerp (L : ℕ → ℕ → ℕ → ℝ) (X Y Z : ℝ) (hX0 : 0 ≤ X) (hX : X ≤ 32) (hY0 : 0 ≤ Y) (hY : Y ≤ 32)
    (hZ0 : 0 ≤ Z) (hZ : Z ≤ 32) :
    ∑ z ∈ Finset.range 33,
        (∑ k ∈ Finset.range 1089, L z (k / 33) (k % 33) * (tent (k / 33) Y * tent (k % 33) X)) * tent z Z
      = L (cell Z) (cell Y) (cell X) * (1 - (Z - cell Z)) * (1 - (Y - cell Y)) * (1 - (X - cell X))
        + L (cell Z) (cell Y) (cell X + 1) * (1 - (Z - cell Z)) * (1 - (Y - cell Y)) * (X - cell X)
        + L (cell Z) (cell Y + 1) (cell X) * (1 - (Z - cell Z)) * (Y - cell Y) * (1 - (X - cell X))
        + L (cell Z) (cell Y + 1) (cell X + 1) * (1 - (Z - cell Z)) * (Y - cell Y) * (X - cell X)
        + L (cell Z + 1) (cell Y) (cell X) * (Z - cell Z) * (1 - (Y - cell Y)) * (1 - (X - cell X))
        + L (cell Z + 1) (cell Y) (cell X + 1) * (Z - cell Z) * (1 - (Y - cell Y)) * (X - cell X)
        + L (cell Z + 1) (cell Y + 1) (cell X) * (Z - cell Z) * (Y - cell Y) * (1 - (X - cell X))
        + L (cell Z + 1) (cell Y + 1) (cell X + 1) * (Z - cell Z) * (Y - cell Y) * (X - cell X) := by
  have hplane : ∀ z ∈ Finset.range 33,
      (∑ k ∈ Finset.range 1089, L z (k / 33) (k % 33) * (tent (k / 33) Y * tent (k % 33) X)) * tent z Z
        = ((L z (cell Y) (cell X) * (1 - (X - cell X)) + L z (cell Y) (cell X + 1) * (X - cell X))
              * (1 - (Y - cell Y))
            + (L z (cell Y + 1) (cell X) * (1 - (X - cell X)) + L z (cell Y + 1) (cell X + 1) * (X - cell X))
              * (Y - cell Y)) * tent z Z := by
    intro z _
    rw [bilerp (L z) X Y hX0 hX hY0 hY]
  rw [Finset.sum_congr rfl hplane]
  rw [tent_sum (fun z =>
        (L z (cell Y) (cell X) * (1 - (X - cell X)) + L z (cell Y) (cell X + 1) * (X - cell X))
              * (1 - (Y - cell Y))
            + (L z (cell Y + 1) (cell X) * (1 - (X - cell X)) + L z (cell Y + 1) (cell X + 1) * (X - cell X))
              * (Y - cell Y)) Z hZ0 hZ]
  ring

end Trilerp
-- ==== Proof.Bridge.lean ====
/-
  The two per-pixel formulas meet in the reals. When the table entries and the three channel values are real numbers,
  every intermediate of both formulas is the image of a real number in the extended reals: the coordinates are
  min 32 (max 0 (32·v)), the kernel's weights are the tents at the grid points, the reference's cell is the clipped
  floor, its integer indices are the cell and its successor (never negative, never beyond the axis), and its weights
  the distances to the cell. The kernel's value is then the triple sum against the three tents and the reference's
  value the blend of the eight corners, and these agree by the one-dimensional tent identity applied axis by axis.
-/
import proofs.«175942_j28200755265787_2_alg».proof.Proof.KSpec
import proofs.«175942_j28200755265787_2_alg».proof.Proof.Tent

noncomputable section

open scoped BigOperators

namespace Trilerp

open Idealize.ShloMosaic Idealize.ShloMosaic.ValueIdx

/-! ### The three literals -/

theorem c32_eq : c32 = ((32 : ℝ) : EReal) := by
  show Ideal.ofBits .f32 0x42000000#32 = ((32 : ℝ) : EReal)
  simp [Ideal.ofBits, Ideal.ieee, -EReal.coe_mul]; norm_num

theorem c1_eq : c1 = ((1 : ℝ) : EReal) := by
  show Ideal.ofBits .f32 0x3F800000#32 = ((1 : ℝ) : EReal)
  simp [Ideal.ofBits, Ideal.ieee, -EReal.coe_mul]; norm_num

theorem c0_eq : c0 = ((0 : ℝ) : EReal) := by
  show Ideal.ofBits .f32 0x00000000#32 = ((0 : ℝ) : EReal)
  simp [Ideal.ofBits, Ideal.ieee]

/-! ### The embedding of the reals commutes with max, min and finite sums -/

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

theorem coe_sum {ι : Type} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-! ### Coordinates -/

/-- A real channel value as a coordinate: 32·v clipped into [0, 32]. -/
def coord (v : ℝ) : ℝ := min 32 (max 0 (v * 32))

theorem coord_nonneg (v : ℝ) : 0 ≤ coord v := le_min (by norm_num) (le_max_left _ _)

theorem coord_le (v : ℝ) : coord v ≤ 32 := min_le_left _ _

theorem coordE_coe (v : ℝ) : coordE (v : EReal) = ((coord v : ℝ) : EReal) := by
  unfold coordE clipE coord
  rw [c32_eq, c0_eq, ← EReal.coe_mul, ← coe_max, ← coe_min]

/-! ### The kernel's grid points and tents -/

/-- A natural number below 2^31 survives the trip through a 32-bit word read signed. -/
theorem toInt_ofNat_small (n : ℕ) (h : n < 2147483648) : (BitVec.ofNat 32 n).toInt = (n : ℤ) := by
  have hn : (BitVec.ofNat 32 n).toNat = n := by
    rw [BitVec.toNat_ofNat]; exact Nat.mod_eq_of_lt (by omega)
  rw [BitVec.toInt_eq_toNat_of_lt (by rw [hn]; omega), hn]

theorem gridE_eq (k : Fin 33) : gridE k = (((k.val : ℕ) : ℝ) : EReal) := by
  unfold gridE
  rw [toInt_ofNat_small k.val (by have := k.isLt; omega)]
  norm_cast

theorem tentE_coe (k : Fin 33) (x : ℝ) : tentE k (x : EReal) = ((tent k.val x : ℝ) : EReal) := by
  unfold tentE tent
  rw [gridE_eq, c0_eq, c1_eq, ← EReal.coe_sub, ← EReal.coe_neg, ← coe_max, ← EReal.coe_sub, ← coe_max,
    abs_eq_max_neg]

/-! ### The table on natural indices -/

/-- A real table on `Fin 33` indices extended by zero to all natural indices. -/
def extL (Lr : Fin 33 → Fin 33 → Fin 33 → ℝ) (z y x : ℕ) : ℝ :=
  if h : z < 33 ∧ y < 33 ∧ x < 33 then Lr ⟨z, h.1⟩ ⟨y, h.2.1⟩ ⟨x, h.2.2⟩ else 0

theorem extL_mk (Lr : Fin 33 → Fin 33 → Fin 33 → ℝ) (z y x : ℕ) (hz : z < 33) (hy : y < 33) (hx : x < 33) :
    extL Lr z y x = Lr ⟨z, hz⟩ ⟨y, hy⟩ ⟨x, hx⟩ := by
  unfold extL
  rw [dif_pos ⟨hz, hy, hx⟩]

theorem extL_fin (Lr : Fin 33 → Fin 33 → Fin 33 → ℝ) (z y x : Fin 33) :
    extL Lr z.val y.val x.val = Lr z y x :=
  extL_mk Lr z.val y.val x.val z.isLt y.isLt x.isLt

/-! ### The reference's cell, indices and corners -/

theorem c31_eq : c32 - c1 = ((31 : ℝ) : EReal) := by
  rw [c32_eq, c1_eq, ← EReal.coe_sub]
  norm_num

/-- The reference's cell of a real coordinate is the clipped floor. -/
theorem cellE_coe (X : ℝ) : cellE (X : EReal) = (((cell X : ℕ) : ℝ) : EReal) := by
  unfold cellE clipE
  rw [c31_eq, c0_eq, Ideal.liftRound_coe, ← coe_max, ← coe_min, cell_cast]

/-- Converting a small natural number to a 32-bit integer gives that number's word. -/
theorem fptosi_natCast (n : ℕ) (h : n ≤ 32) : Ideal.fptosi 32 (((n : ℕ) : ℝ) : EReal) = BitVec.ofNat 32 n := by
  rw [Ideal.fptosi, Ideal.toIntClamped_coe, if_pos (Nat.cast_nonneg n), Int.floor_natCast]
  have h1 : min ((2 ^ (32 - 1) : ℕ) - 1 : ℤ) (n : ℤ) = (n : ℤ) := by
    apply min_eq_right
    norm_num
    omega
  have h2 : max (-((2 ^ (32 - 1) : ℕ) : ℤ)) (n : ℤ) = (n : ℤ) := by
    apply max_eq_right
    have hn : (0 : ℤ) ≤ (n : ℤ) := Int.natCast_nonneg n
    have hp : -((2 ^ (32 - 1) : ℕ) : ℤ) ≤ 0 := by norm_num
    exact le_trans hp hn
  rw [h1, h2, BitVec.ofInt_natCast]

/-- A small non-negative index is not wrapped. -/
theorem wrapI_ofNat (n : ℕ) (h : n ≤ 32) : wrapI (BitVec.ofNat 32 n) = BitVec.ofNat 32 n := by
  unfold wrapI IntOp.cmpi
  have hs : (BitVec.ofNat 32 n).slt 0#32 = false := by
    rw [BitVec.slt_eq_decide, toInt_ofNat_small n (by omega)]
    have h0 : (0#32).toInt = 0 := by decide
    rw [h0]
    exact decide_eq_false (by omega)
  show Scalar.select (BitVec.ofBool ((BitVec.ofNat 32 n).slt 0#32)) _ _ = _
  rw [hs, BitVec.ofBool_false]
  exact select_zero _ _

/-- A small non-negative index is not clamped. -/
theorem clampI_ofNat (n : ℕ) (h : n ≤ 32) : clampI (BitVec.ofNat 32 n) = ⟨n, by omega⟩ := by
  unfold clampI
  apply Fin.ext
  show min (BitVec.ofNat 32 n).toInt.toNat 32 = n
  rw [toInt_ofNat_small n (by omega), Int.toNat_natCast]
  exact min_eq_left h

theorem addi_one (n : ℕ) : IntOp.addi (BitVec.ofNat 32 n) 1#32 = BitVec.ofNat 32 (n + 1) := by
  unfold IntOp.addi
  exact (BitVec.ofNat_add n 1).symm

/-- The reference's table entry at three small non-negative indices is the table's entry there. -/
theorem corner_coe (Lr : Fin 33 → Fin 33 → Fin 33 → ℝ) (a b c : ℕ) (ha : a ≤ 32) (hb : b ≤ 32) (hc : c ≤ 32) :
    corner (fun z y x => ((Lr z y x : ℝ) : EReal)) (BitVec.ofNat 32 a) (BitVec.ofNat 32 b) (BitVec.ofNat 32 c)
      = ((extL Lr a b c : ℝ) : EReal) := by
  unfold corner
  rw [wrapI_ofNat a ha, wrapI_ofNat b hb, wrapI_ofNat c hc, clampI_ofNat a ha, clampI_ofNat b hb,
    clampI_ofNat c hc, extL_mk Lr a b c (by omega) (by omega) (by omega)]

/-! ### The reference's value is the blend of the eight corners -/

/-- The blend of the eight corners of the cell of (Z, Y, X), in the order the reference adds them. -/
def blend (L : ℕ → ℕ → ℕ → ℝ) (X Y Z : ℝ) : ℝ :=
  L (cell Z) (cell Y) (cell X) * (1 - (Z - cell Z)) * (1 - (Y - cell Y)) * (1 - (X - cell X))
    + L (cell Z) (cell Y) (cell X + 1) * (1 - (Z - cell Z)) * (1 - (Y - cell Y)) * (X - cell X)
    + L (cell Z) (cell Y + 1) (cell X) * (1 - (Z - cell Z)) * (Y - cell Y) * (1 - (X - cell X))
    + L (cell Z) (cell Y + 1) (cell X + 1) * (1 - (Z - cell Z)) * (Y - cell Y) * (X - cell X)
    + L (cell Z + 1) (cell Y) (cell X) * (Z - cell Z) * (1 - (Y - cell Y)) * (1 - (X - cell X))
    + L (cell Z + 1) (cell Y) (cell X + 1) * (Z - cell Z) * (1 - (Y - cell Y)) * (X - cell X)
    + L (cell Z + 1) (cell Y + 1) (cell X) * (Z - cell Z) * (Y - cell Y) * (1 - (X - cell X))
    + L (cell Z + 1) (cell Y + 1) (cell X + 1) * (Z - cell Z) * (Y - cell Y) * (X - cell X)

theorem refPix_coe (Lr : Fin 33 → Fin 33 → Fin 33 → ℝ) (r g b : ℝ) :
    refPix (fun z y x => ((Lr z y x : ℝ) : EReal)) (r : EReal) (g : EReal) (b : EReal)
      = ((blend (extL Lr) (coord r) (coord g) (coord b) : ℝ) : EReal) := by
  have hX := cell_le (coord r)
  have hY := cell_le (coord g)
  have hZ := cell_le (coord b)
  unfold refPix
  simp only [coordE_coe, cellE_coe]
  rw [fptosi_natCast (cell (coord r)) (by omega), fptosi_natCast (cell (coord g)) (by omega),
    fptosi_natCast (cell (coord b)) (by omega)]
  simp only [addi_one]
  rw [corner_coe Lr (cell (coord b)) (cell (coord g)) (cell (coord r)) (by omega) (by omega) (by omega),
    corner_coe Lr (cell (coord b)) (cell (coord g)) (cell (coord r) + 1) (by omega) (by omega) (by omega),
    corner_coe Lr (cell (coord b)) (cell (coord g) + 1) (cell (coord r)) (by omega) (by omega) (by omega),
    corner_coe Lr (cell (coord b)) (cell (coord g) + 1) (cell (coord r) + 1) (by omega) (by omega) (by omega),
    corner_coe Lr (cell (coord b) + 1) (cell (coord g)) (cell (coord r)) (by omega) (by omega) (by omega),
    corner_coe Lr (cell (coord b) + 1) (cell (coord g)) (cell (coord r) + 1) (by omega) (by omega) (by omega),
    corner_coe Lr (cell (coord b) + 1) (cell (coord g) + 1) (cell (coord r)) (by omega) (by omega) (by omega),
    corner_coe Lr (cell (coord b) + 1) (cell (coord g) + 1) (cell (coord r) + 1) (by omega) (by omega) (by omega)]
  rw [c1_eq]
  simp only [← EReal.coe_sub, ← EReal.coe_mul, ← EReal.coe_add]
  rfl

/-! ### The kernel's value is the triple sum against the three tents -/

theorem kerPix_coe (Lr : Fin 33 → Fin 33 → Fin 33 → ℝ) (r g b : ℝ) :
    kerPix (fun z k => ((Lr z (kY k) (kX k) : ℝ) : EReal)) (r : EReal) (g : EReal) (b : EReal)
      = ((∑ z ∈ Finset.range 33,
            (∑ k ∈ Finset.range 1089,
                extL Lr z (k / 33) (k % 33) * (tent (k / 33) (coord g) * tent (k % 33) (coord r)))
              * tent z (coord b) : ℝ) : EReal) := by
  rw [← Fin.sum_univ_eq_sum_range
        (fun z => (∑ k ∈ Finset.range 1089,
            extL Lr z (k / 33) (k % 33) * (tent (k / 33) (coord g) * tent (k % 33) (coord r))) * tent z (coord b)) 33,
    coe_sum]
  unfold kerPix
  simp only [coordE_coe, tentE_coe]
  apply Finset.sum_congr rfl
  intro z _
  rw [EReal.coe_mul]
  congr 1
  rw [← Fin.sum_univ_eq_sum_range
        (fun k => extL Lr z (k / 33) (k % 33) * (tent (k / 33) (coord g) * tent (k % 33) (coord r))) 1089,
    coe_sum]
  apply Finset.sum_congr rfl
  intro k _
  rw [EReal.coe_mul, EReal.coe_mul]
  have hL : extL Lr z.val (k.val / 33) (k.val % 33) = Lr z (kY k) (kX k) := extL_fin Lr z (kY k) (kX k)
  rw [hL]
  rfl

/-! ### The two values agree -/

theorem kerPix_eq_refPix (L : Fin 33 → Fin 33 → Fin 33 → EReal) (r g b : EReal)
    (hL : ∀ z y x, ∃ q : ℝ, L z y x = (q : EReal)) (hr : ∃ q : ℝ, r = (q : EReal)) (hg : ∃ q : ℝ, g = (q : EReal))
    (hb : ∃ q : ℝ, b = (q : EReal)) :
    kerPix (fun z k => L z (kY k) (kX k)) r g b = refPix L r g b := by
  obtain ⟨r', rfl⟩ := hr
  obtain ⟨g', rfl⟩ := hg
  obtain ⟨b', rfl⟩ := hb
  choose Lr hLr using hL
  have hLfun : L = fun z y x => ((Lr z y x : ℝ) : EReal) := by
    funext z y x
    exact hLr z y x
  subst hLfun
  rw [kerPix_coe, refPix_coe]
  congr 1
  exact trilerp (extL Lr) (coord r') (coord g') (coord b') (coord_nonneg r') (coord_le r') (coord_nonneg g')
    (coord_le g') (coord_nonneg b') (coord_le b')

end Trilerp

end
-- ==== Proof.WholeArray.lean ====
/-
  From one pixel to the whole array. An array that at every (batch, channel, row, column) holds the reference's value
  for that pixel and that channel's table is, when the table and the image are real-valued, the array of the kernel's
  values: every index of a rank-4 array is the index of its four coordinates, and at each the two per-pixel values
  agree.
-/
import proofs.«175942_j28200755265787_2_alg».proof.Proof.Bridge

noncomputable section

namespace Trilerp

open Idealize.ShloMosaic Idealize.ShloMosaic.ValueIdx

theorem eq_G_of_pixels (R : (⟨4, ![32, 3, 512, 512]⟩ : Shape).Idx → EReal)
    (lut : (⟨4, ![3, 33, 33, 33]⟩ : Shape).Idx → EReal) (img : (⟨4, ![32, 3, 512, 512]⟩ : Shape).Idx → EReal)
    (hR : ∀ (b : Fin 32) (c : Fin 3) (h w : Fin 512),
      R (ix4 b c h w) = refPix (fun z y x => lut (ix4 c z y x)) (img (ix4 b (0 : Fin 3) h w))
        (img (ix4 b (1 : Fin 3) h w)) (img (ix4 b (2 : Fin 3) h w)))
    (hlut : ∀ i, ∃ q : ℝ, lut i = (q : EReal)) (himg : ∀ i, ∃ q : ℝ, img i = (q : EReal)) : R = G lut img := by
  funext i
  obtain ⟨b, c, h, w, rfl⟩ : ∃ (b : Fin 32) (c : Fin 3) (h w : Fin 512), i = ix4 b c h w :=
    ⟨i 0, i 1, i 2, i 3, eq_ix4 i⟩
  rw [hR b c h w]
  show refPix (fun z y x => lut (ix4 c z y x)) (img (ix4 b (0 : Fin 3) h w)) (img (ix4 b (1 : Fin 3) h w))
      (img (ix4 b (2 : Fin 3) h w))
    = kerPix (fun z k => lut (ix4 c z (kY k) (kX k))) (img (ix4 b (0 : Fin 3) h w)) (img (ix4 b (1 : Fin 3) h w))
      (img (ix4 b (2 : Fin 3) h w))
  exact (kerPix_eq_refPix (fun z y x => lut (ix4 c z y x)) _ _ _ (fun z y x => hlut _) (himg _) (himg _)
    (himg _)).symm

end Trilerp

end
-- ==== Proof.Finite.lean ====
/-
  Finiteness of the inputs, read back from the precondition.

  The precondition computes, for each of the two float inputs x, the conjunction over all entries of
  "|x i| < +∞" (an absolute value, a comparison against the broadcast constant whose bit pattern
  0x7F800000 is +∞, and a reduction by "and" over every axis), and then the "and" of the two results.
  At the ideal instance a float is an extended real and |x| is max x (-x); an extended real whose
  absolute value lies strictly below +∞ is neither +∞ nor -∞ (nor the junk value, which is the bottom
  element here and has absolute value +∞ as well), hence the coercion of a real number.
-/
import proofs.«175942_j28200755265787_2_alg».proof.Pre_finite_inputs
import Idealize.ShloMosaic.PureOps.Ideal
import Idealize.ShloMosaic.Lib.ValueIdx
import Idealize.ShloMosaic.Lib.ReduceAll

namespace Cert.Finite

open Idealize.ShloMosaic

/-- The f32 bit pattern 0x7F800000 (sign 0, exponent all ones, fraction 0) denotes +∞. -/
theorem ofBits_inf : Ideal.ofBits .f32 0x7F800000#32 = (⊤ : EReal) := by
  simp [Ideal.ofBits, Ideal.ieee]

/-- If the comparison "max x (-x) < +∞" holds (its one-bit result is 1), then x is a real number:
    for x = ⊥ the maximum is -⊥ = ⊤, for x = ⊤ it is ⊤, and ⊤ < ⊤ is false in both cases. -/
theorem real_of_cmp (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The rank-0 shape has exactly one index (the empty function). -/
instance : Subsingleton Cert.Pre_finite_inputs.S_.Idx := ⟨fun a b => funext fun d => d.elim0⟩

/-- If the precondition evaluates to "true", every entry of both inputs is a real number. -/
theorem of_pre [Cert.Pre_finite_inputs.Facts]
    (a0 : FVec Ideal Cert.Pre_finite_inputs.S3x33x33x33 .f32) (a1 : FVec Ideal Cert.Pre_finite_inputs.S32x3x512x512 .f32)
    (h : Cert.Pre_finite_inputs.fn (F := Ideal) a0 a1 = fun _ => 1#1) :
    (∀ i, ∃ r : ℝ, a0 i = (r : EReal)) ∧ (∀ i, ∃ r : ℝ, a1 i = (r : EReal)) := by
  -- the scalar result at its one index
  have h0 := congrFun h ValueIdx.ix0
  dsimp only [Cert.Pre_finite_inputs.fn] at h0
  -- the final "and" of the two reductions is 1, so each reduction is 1
  obtain ⟨h1, h2⟩ := IntOp.andi_eq_one.1 h0
  refine ⟨fun i => ?_, fun i => ?_⟩
  · -- a reduction by "and" over all axes that is 1 had a 1 at every entry
    have e := Host.reduce_andi_all _ _ _ _ _ h1 i
    exact real_of_cmp (a0 i) e
  · have e := Host.reduce_andi_all _ _ _ _ _ h2 i
    exact real_of_cmp (a1 i) e

end Cert.Finite
-- ==== Proof.lean ====
/-
  Trilinear interpolation of an image through a 33 × 33 × 33 colour table, three output channels. For a pixel with
  channel values (r, g, b) the coordinates are X = clip(32·r), Y = clip(32·g), Z = clip(32·b) in [0, 32].

  The kernel weighs, per axis, ALL 33 grid points by the tent max 0 (1 - |k - coordinate|) and contracts the table
  with the three tents (the two inner axes jointly on the matrix unit, the outer axis by a lane sum). The reference
  takes the cell ⌊coordinate⌋ clipped into [0, 31], fetches the table at the eight corners of the cell through integer
  indices, and blends them with the weights coordinate - cell and 1 - (coordinate - cell).

  On [0, 32] the tent at grid point k vanishes unless k is the cell or its successor, where it is exactly those two
  weights; so a sum against a tent keeps two terms, and three such sums are the eight-corner blend. The table's
  entries are finite by the precondition and the clipped coordinates are finite whatever the pixel, so every sum and
  product here is one of real numbers, where moving a factor through a sum is allowed.

  Kernel side: every stored piece of the output block is a tile of one function of the block index, the blocks tile
  the result array, so the array is one function `Trilerp.G` of the two argument arrays. Reference side: its last
  stage read at an index is the eight-corner formula `Trilerp.refPix`, which under finiteness is `G` at that index.
-/
import proofs.«175942_j28200755265787_2_alg».proof.Defs
import proofs.«175942_j28200755265787_2_alg».proof.Proof.Gen.Kernel
import proofs.«175942_j28200755265787_2_alg».proof.Proof.Gen.Kernel.Skeleton
import proofs.«175942_j28200755265787_2_alg».proof.Proof.Gen.Kernel.Launch
import proofs.«175942_j28200755265787_2_alg».proof.Proof.Gen.Kernel.Points
import proofs.«175942_j28200755265787_2_alg».proof.Proof.Gen.Kernel.Frame
import proofs.«175942_j28200755265787_2_alg».proof.Proof.Gen.KernelIdeal
import proofs.«175942_j28200755265787_2_alg».proof.Proof.Gen.KernelIdeal.Skeleton
import proofs.«175942_j28200755265787_2_alg».proof.Proof.Gen.KernelIdeal.Launch
import proofs.«175942_j28200755265787_2_alg».proof.Proof.Gen.KernelIdeal.Points
import proofs.«175942_j28200755265787_2_alg».proof.Proof.Gen.KernelIdeal.Frame
import proofs.«175942_j28200755265787_2_alg».proof.Proof.Gen.KernelIdeal.Value
import proofs.«175942_j28200755265787_2_alg».proof.Proof.Gen.ReferenceIdeal
import proofs.«175942_j28200755265787_2_alg».proof.Proof.Gen.Pre_finite_inputs
import proofs.«175942_j28200755265787_2_alg».proof.Proof.KFinal
import proofs.«175942_j28200755265787_2_alg».proof.Proof.RefRunP
import proofs.«175942_j28200755265787_2_alg».proof.Proof.RefRead
import proofs.«175942_j28200755265787_2_alg».proof.Proof.WholeArray
import proofs.«175942_j28200755265787_2_alg».proof.Proof.Finite
import Idealize.ShloMosaic.Adequacy
import Idealize.ShloMosaic.Init

noncomputable section

namespace Cert.Proof

open Idealize.ShloMosaic Idealize.ShloMosaic.TcCoe Idealize.SL.Sem

/-- The reference run's result term is its last stage as a function of the two argument arrays. -/
theorem res_eq_val (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v299 (F := Ideal) m c
      = Cert.ReferenceIdeal.ReadP.val_main_v299 (F := Ideal)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1)) := by
  unfold Cert.ReferenceIdeal.ValueP.res_main_v299; rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => ⟨(h c).1, (h c).2.2.2⟩)
    (Cert.ReferenceIdeal.ValueP.run (F := Ideal) m ρ)

/-- The idealization rewrote nothing. -/
theorem preserves : Cert.preserves_Kernel_KernelIdeal := trivial

/-- Both programs end with the result array at `Trilerp.G` of the argument arrays: the kernel by its blocks, the
    reference because its eight-corner formula is, for finite inputs, the three-tent contraction. -/
theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg0),
    fun c => Trilerp.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun r h c => ⟨(h c).2.1, (h c).1, (h c).2.1, (h c).2.2⟩)
      (Cert.KernelIdeal.KValue.run m ρ)
  · refine (θ_run Cert.ReferenceIdeal.defs _ _).mono (fun r h c => ?_)
      (Cert.ReferenceIdeal.ValueP.run (F := Ideal) m' ρ')
    obtain ⟨h0, h1, -, h3⟩ := h c
    have hfin := Cert.Finite.of_pre _ _ (hpre c)
    refine ⟨h0.trans (hagree c).1, ?_, h0, h3⟩
    rw [h1, res_eq_val, (hagree c).1, (hagree c).2]
    exact Trilerp.eq_G_of_pixels _ _ _
      (fun b ch h w => Cert.ReferenceIdeal.RefValue.ref_apply _ _ b ch h w) hfin.1 hfin.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
